-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096x32 .f32) (main_arg3 : FVec F S4096x32 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S1x4096 : Shape := ⟨2, ![1, 4096]⟩
abbrev S8192x32 : Shape := ⟨2, ![8192, 32]⟩
abbrev S256x4096 : Shape := ⟨2, ![256, 4096]⟩
abbrev S256x32 : Shape := ⟨2, ![256, 32]⟩
abbrev S256x64x64 : Shape := ⟨3, ![256, 64, 64]⟩
abbrev S256x64 : Shape := ⟨2, ![256, 64]⟩
abbrev S256x64x1 : Shape := ⟨3, ![256, 64, 1]⟩
abbrev S1024x1024 : Shape := ⟨2, ![1024, 1024]⟩
abbrev S1x1024 : Shape := ⟨2, ![1, 1024]⟩
abbrev S1024x32 : Shape := ⟨2, ![1024, 32]⟩

abbrev nBuf : Space → Nat
  | .hbm => 14
  | .vmem => 25
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S4096x32, .bf16⟩
  | .hbm, ⟨9, _⟩ => ⟨S4096x32, .bf16⟩
  | .hbm, ⟨10, _⟩ => ⟨S8192x4096, .bf16⟩
  | .hbm, ⟨11, _⟩ => ⟨S8192x32, .f32⟩
  | .hbm, ⟨12, _⟩ => ⟨S4096x4096, .bf16⟩
  | .hbm, ⟨13, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x32, .bf16⟩
  | .local _ .vmem, ⟨4, _⟩ => ⟨S256x4096, .bf16⟩
  | .local _ .vmem, ⟨5, _⟩ => ⟨S256x4096, .bf16⟩
  | .local _ .vmem, ⟨6, _⟩ => ⟨S256x32, .f32⟩
  | .local _ .vmem, ⟨7, _⟩ => ⟨S256x32, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x32, .f32⟩
  | .local _ .vmem, ⟨19, _⟩ => ⟨S1024x32, .f32⟩
  | .local _ .vmem, ⟨20, _⟩ => ⟨S1024x32, .bf16⟩
  | .local _ .vmem, ⟨21, _⟩ => ⟨S1024x32, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1024x32 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  shapeCasts_S4096_S1x4096 : S4096.ShapeCasts S1x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S256x32_S256x32_0_0 : ∀ a, (![0, 0] : Fin 2 → Nat) a + S256x32.size a ≤ S256x32.size a
  h_S256x32 : 0 < S256x32.numel
  shapeCasts_S256x4096_S256x64x64 : S256x4096.ShapeCasts S256x64x64
  reduces_S256x64x64_S256x64 : S256x64x64.Reduces [2] S256x64
  shapeCasts_S256x64_S256x64x1 : S256x64.ShapeCasts S256x64x1
  broadcasts_S256x64x1_S256x64x64 : S256x64x1.Broadcasts S256x64x64
  shapeCasts_S256x64x64_S256x4096 : S256x64x64.ShapeCasts S256x4096
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S256x4096_S4096x32_S256x32_1_0_0_1_n_n_wf : DotDims.WF S256x4096 S4096x32 S256x32 [1] [0] [0] [1] [] []
  dot_S1024x1024_S1024x1024_S1024x1024_1_1_0_0_n_n_wf : DotDims.WF S1024x1024 S1024x1024 S1024x1024 [1] [1] [0] [0] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .bf16 = 32 ∨ (Rect.block (s := S8192x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S8192x32.size a
  hwx0_4 : ∀ i : grid0.Coords, EltTy.bits .f32 = 32 ∨ (Rect.block (s := S8192x32) S256x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x32.size a ≤ S8192x32.size a
  hwx2_3 : ∀ i : grid2.Coords, EltTy.bits .f32 = 32 ∨ (Rect.block (s := S8192x32) S1024x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x32.size a ≤ S4096x32.size a
  hwx2_4 : ∀ i : grid2.Coords, EltTy.bits .bf16 = 32 ∨ (Rect.block (s := S4096x32) S1024x32.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x4096.size a
  hwx2_5 : ∀ i : grid2.Coords, EltTy.bits .f32 = 32 ∨ (Rect.block (s := S8192x4096) S1024x1024.size (cc2_transform_5 i) (hinb2_5 i)).WholeWords (EltTy.packing .f32)

variable [Facts₀]

def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S256x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S1024x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1024x32.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S1x4096 : Shape := ⟨2, ![1, 4096]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S4096x64x64 : Shape := ⟨3, ![4096, 64, 64]⟩
abbrev S4096x64 : Shape := ⟨2, ![4096, 64]⟩
abbrev S4096x64x1 : Shape := ⟨3, ![4096, 64, 1]⟩
abbrev S8192x32 : Shape := ⟨2, ![8192, 32]⟩

abbrev nBuf : Space → Nat
  | .hbm => 66
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x64x64, .f32⟩
  | .hbm, ⟨10, _⟩ => ⟨S8192x64x64, .f32⟩
  | .hbm, ⟨11, _⟩ => ⟨S_, .f32⟩
  | .hbm, ⟨12, _⟩ => ⟨S8192x64, .f32⟩
  | .hbm, ⟨13, _⟩ => ⟨S8192x64x1, .f32⟩
  | .hbm, ⟨14, _⟩ => ⟨S_, .f32⟩
  | .hbm, ⟨15, _⟩ => ⟨S8192x64x1, .f32⟩
  | .hbm, ⟨16, _⟩ => ⟨S8192x64x1, .f32⟩
  | .hbm, ⟨17, _⟩ => ⟨S_, .f32⟩
  | .hbm, ⟨18, _⟩ => ⟨S8192x64x1, .f32⟩
  | .hbm, ⟨19, _⟩ => ⟨S8192x64x1, .f32⟩
  | .hbm, ⟨20, _⟩ => ⟨S8192x64x64, .f32⟩
  | .hbm, ⟨21, _⟩ => ⟨S8192x64x64, .f32⟩
  | .hbm, ⟨22, _⟩ => ⟨S8192x64x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x64x64, .f32⟩
  | .hbm, ⟨27, _⟩ => ⟨S8192x64x64, .f32⟩
  | .hbm, ⟨28, _⟩ => ⟨S_, .f32⟩
  | .hbm, ⟨29, _⟩ => ⟨S8192x64x64, .f32⟩
  | .hbm, ⟨30, _⟩ => ⟨S8192x64x64, .f32⟩
  | .hbm, ⟨31, _⟩ => ⟨S8192x64x64, .f32⟩
  | .hbm, ⟨32, _⟩ => ⟨S8192x64x64, .f32⟩
  | .hbm, ⟨33, _⟩ => ⟨S8192x4096, .f32⟩
  | .hbm, ⟨34, _⟩ => ⟨S4096x64x64, .f32⟩
  | .hbm, ⟨35, _⟩ => ⟨S4096x64x64, .f32⟩
  | .hbm, ⟨36, _⟩ => ⟨S_, .f32⟩
  | .hbm, ⟨37, _⟩ => ⟨S4096x64, .f32⟩
  | .hbm, ⟨38, _⟩ => ⟨S4096x64x1, .f32⟩
  | .hbm, ⟨39, _⟩ => ⟨S_, .f32⟩
  | .hbm, ⟨40, _⟩ => ⟨S4096x64x1, .f32⟩
  | .hbm, ⟨41, _⟩ => ⟨S4096x64x1, .f32⟩
  | .hbm, ⟨42, _⟩ => ⟨S_, .f32⟩
  | .hbm, ⟨43, _⟩ => ⟨S4096x64x1, .f32⟩
  | .hbm, ⟨44, _⟩ => ⟨S4096x64x1, .f32⟩
  | .hbm, ⟨45, _⟩ => ⟨S4096x64x64, .f32⟩
  | .hbm, ⟨46, _⟩ => ⟨S4096x64x64, .f32⟩
  | .hbm, ⟨47, _⟩ => ⟨S4096x64x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x64x64, .f32⟩
  | .hbm, ⟨52, _⟩ => ⟨S4096x64x64, .f32⟩
  | .hbm, ⟨53, _⟩ => ⟨S_, .f32⟩
  | .hbm, ⟨54, _⟩ => ⟨S4096x64x64, .f32⟩
  | .hbm, ⟨55, _⟩ => ⟨S4096x64x64, .f32⟩
  | .hbm, ⟨56, _⟩ => ⟨S4096x64x64, .f32⟩
  | .hbm, ⟨57, _⟩ => ⟨S4096x64x64, .f32⟩
  | .hbm, ⟨58, _⟩ => ⟨S4096x4096, .f32⟩
  | .hbm, ⟨59, _⟩ => ⟨S8192x4096, .f32⟩
  | .hbm, ⟨60, _⟩ => ⟨S8192x32, .f32⟩
  | .hbm, ⟨61, _⟩ => ⟨S8192x4096, .f32⟩
  | .hbm, ⟨62, _⟩ => ⟨S8192x4096, .f32⟩
  | .hbm, ⟨63, _⟩ => ⟨S1x4096, .f32⟩
  | .hbm, ⟨64, _⟩ => ⟨S8192x4096, .f32⟩
  | .hbm, ⟨65, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_cst_8 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x64x64 : S8192x4096.ShapeCasts S8192x64x64
  reducesTo_S8192x64x64_S8192x64_d2 : S8192x64x64.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x64_0_1_2 : S8192x64x1.BroadcastsInDim S8192x64x64 (![0, 1, 2] : Fin 3 → Fin S8192x64x64.rank)
  bcast_S_S8192x64x64 : S_.BroadcastsInDim S8192x64x64 (![] : Fin 0 → Fin S8192x64x64.rank)
  shapeCasts_S8192x64x64_S8192x4096 : S8192x64x64.ShapeCasts S8192x4096
  shapeCasts_S4096x4096_S4096x64x64 : S4096x4096.ShapeCasts S4096x64x64
  reducesTo_S4096x64x64_S4096x64_d2 : S4096x64x64.ReducesTo [2] S4096x64
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64x1_S4096x64x64_0_1_2 : S4096x64x1.BroadcastsInDim S4096x64x64 (![0, 1, 2] : Fin 3 → Fin S4096x64x64.rank)
  bcast_S_S4096x64x64 : S_.BroadcastsInDim S4096x64x64 (![] : Fin 0 → Fin S4096x64x64.rank)
  shapeCasts_S4096x64x64_S4096x4096 : S4096x64x64.ShapeCasts S4096x4096
  dot_S8192x4096_S4096x4096_S8192x4096_1_1_0_0_n_n_wf : DotDims.WF S8192x4096 S4096x4096 S8192x4096 [1] [1] [0] [0] [] []
  dot_S8192x4096_S4096x32_S8192x32_1_0_0_1_n_n_wf : DotDims.WF S8192x4096 S4096x32 S8192x32 [1] [0] [0] [1] [] []
  dot_S8192x32_S4096x32_S8192x4096_1_1_0_0_n_n_wf : DotDims.WF S8192x32 S4096x32 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S4096x32_S8192x32_1_0_0_1_n_n : DotDims S8192x4096 S4096x32 S8192x32 where
  lhsContracting := [1]
  rhsContracting := [0]
  lhsNonContracting := [0]
  rhsNonContracting := [1]
  lhsBatch := []
  rhsBatch := []
  wf := dot_S8192x4096_S4096x32_S8192x32_1_0_0_1_n_n_wf
def dot_S8192x32_S4096x32_S8192x4096_1_1_0_0_n_n : DotDims S8192x32 S4096x32 S8192x4096 where
  lhsContracting := [1]
  rhsContracting := [1]
  lhsNonContracting := [0]
  rhsNonContracting := [0]
  lhsBatch := []
  rhsBatch := []
  wf := dot_S8192x32_S4096x32_S8192x4096_1_1_0_0_n_n_wf

class Facts : Prop extends Facts₀ where

variable [Facts]
-- ==== Proof.FrameR0.lean ====
/-
  The first launch: the activation smoothed, projected and quantized, 256 rows at a time.

  The grid has 32 points; point `t` reads rows `256·t … 256·t+255` of the activation (all 4096 columns),
  the one row of smoothing factors and the whole 4096 × 32 down-projection (the same block at every
  point), and writes the same rows of two arrays: the quantized smoothed activation (256 × 4096) and
  the projection of the smoothed activation (256 × 32). Each output block depends only on the input
  blocks of its own point and no block is written twice. This module says what the body leaves in the
  two output buffers (one store each, of a pure function of the three loaded blocks), proves that the
  body runs to its end on any buffers, and packages this as the launch's proof data at ANY contents
  `V` of the buffers on entry.
-/
import proofs.«181425_j56727928045732_2_alg».proof.Proof.Gen.KernelIdeal.Launch
import proofs.«181425_j56727928045732_2_alg».proof.Proof.Gen.KernelIdeal.Skeleton
import proofs.«181425_j56727928045732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the block was brought in there or is the one
    already present (the smoothing row and the down-projection never move), for any proof data over `V`'s arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each buffer whole. -/
abbrev r0_0 : Rect S256x4096 := Rect.unit (s := S256x4096) ![0, 0] S256x4096.size inb_S256x4096_S256x4096_0_0
abbrev r0_1 : Rect S1x4096 := Rect.unit (s := S1x4096) ![0, 0] S1x4096.size inb_S1x4096_S1x4096_0_0
abbrev r0_2 : Rect S4096x32 := Rect.unit (s := S4096x32) ![0, 0] S4096x32.size inb_S4096x32_S4096x32_0_0
abbrev r0_4 : Rect S256x32 := Rect.unit (s := S256x32) ![0, 0] S256x32.size inb_S256x32_S256x32_0_0

/-- What the body leaves in the quantized output's buffer: its one store, of the quantization of the smoothed block. -/
def out0_3 (x0 : Vec F S256x4096 .f32) (x1 : Vec F S1x4096 .f32) : Vec F S256x4096 .bf16 :=
  View.canon [⟨r0_0, k0_pay3 (View.ld x0 r0_0) (View.ld x1 r0_1)⟩]
/-- What the body leaves in the projection's buffer: its one store, of the smoothed block times the down-projection. -/
def out0_4 (x0 : Vec F S256x4096 .f32) (x1 : Vec F S1x4096 .f32) (x2 : Vec F S4096x32 .bf16) : Vec F S256x32 .f32 :=
  View.canon [⟨r0_4, k0_pay2 (View.ld x0 r0_0) (View.ld x1 r0_1) (View.ld x2 r0_2)⟩]

/-- Each store covers its buffer. -/
theorem cover0_3 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y
theorem cover0_4 (p0 : Vec F S256x32 .f32) (y : S256x32.Idx) :
    ∃ pc ∈ ([⟨r0_4, p0⟩] : List (View.Piece (Elt F) S256x32 .f32)), y ∈ pc.1.set :=
  View.cover_of_tiled [⟨r0_4, p0⟩] S256x32.size (by rfl) y

set_option maxHeartbeats 1000000 in
/-- The body on whole buffers, the inputs' at contents `x0 x1 x2` and the outputs' at anything, runs to the end with
    the inputs' as they were and the outputs' at `out0_3`, `out0_4` of the inputs'. -/
theorem sound_kernel0 (c : Dev nD) (E : Set ℕ) (i : grid0.Coords) (arg1 : Memref sig .tc .vmem S256x4096 .f32) (harg1 : arg1.IsWhole) (arg2 : Memref sig .tc .vmem S1x4096 .f32) (harg2 : arg2.IsWhole) (arg3 : Memref sig .tc .vmem S4096x32 .bf16) (harg3 : arg3.IsWhole) (arg4 : Memref sig .tc .vmem S256x4096 .bf16) (harg4 : arg4.IsWhole) (arg5 : Memref sig .tc .vmem S256x32 .f32) (harg5 : arg5.IsWhole)
    (x0 : Vec F S256x4096 .f32) (x1 : Vec F S1x4096 .f32) (x2 : Vec F S4096x32 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__prequant_x_kernel i arg1 harg1 arg2 harg2 arg3 harg3 arg4 harg4 arg5 harg5) K := by
  simp only [cc0__prequant_x_kernel_eq_skeleton]; unfold cc0__prequant_x_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The launch's proof data on core `c`: the arrays as found; after the body at point `t` each input's buffer at its
    block and the two outputs' at `out0_3`, `out0_4` of the input blocks; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.FrameR1.lean ====
/-
  The second launch: the weight quantized, 256 rows at a time.

  The grid has 16 points; point `t` reads rows `256·t … 256·t+255` of the weight (all 4096 columns)
  and writes the same rows of the quantized weight. A block of the output depends on the same block
  of the input and on nothing else, and no block is written twice, so the array the launch leaves is
  read block by block. This module says what the body leaves in the output window's buffer (the
  quantization of the block it was handed), proves that the body runs to its end on any buffers, and
  packages the two as the launch's proof data at ANY contents `V` of the buffers on entry.
-/
import proofs.«181425_j56727928045732_2_alg».proof.Proof.Gen.KernelIdeal.Launch
import proofs.«181425_j56727928045732_2_alg».proof.Proof.Gen.KernelIdeal.Skeleton
import proofs.«181425_j56727928045732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's buffer holds its block at every point, for any proof data over `V`'s arrays whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches: the whole 256 × 4096 buffer. -/
abbrev r1_0 : Rect S256x4096 := Rect.unit (s := S256x4096) ![0, 0] S256x4096.size inb_S256x4096_S256x4096_0_0

/-- What the body leaves in the output window's buffer: its one store, of the quantization of the block it loaded. -/
def out1_1 (x0 : Vec F S256x4096 .f32) : Vec F S256x4096 .bf16 :=
  View.canon [⟨r1_0, k1_pay1 (View.ld x0 r1_0)⟩]

/-- That store covers the buffer. -/
theorem cover1_1 (p0 : Vec F S256x4096 .bf16) (y : S256x4096.Idx) :
    ∃ pc ∈ ([⟨r1_0, p0⟩] : List (View.Piece (Elt F) S256x4096 .bf16)), y ∈ pc.1.set :=
  View.cover_of_tiled [⟨r1_0, p0⟩] S256x4096.size (by rfl) y

set_option maxHeartbeats 1000000 in
/-- The body on whole buffers, the input's at contents `x0` and the output's at anything, runs to the end with the
    input's as it was and the output's at `out1_1 x0`. -/
theorem sound_kernel1 (c : Dev nD) (E : Set ℕ) (i : grid1.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__prequant_w_kernel i arg1 harg1 arg2 harg2) K := by
  simp only [cc1__prequant_w_kernel_eq_skeleton]; unfold cc1__prequant_w_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The launch's proof data on core `c`: the arrays as found; after the body at point `t` the input's buffer at its
    block and the output's at the quantization of that block; the invariant the plain one (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.FrameRun.lean ====
/-
  The whole run: four host operations, then the three launches one after the other.

  Between two items each core holds every unscoped buffer at known contents: the launch memory; then
  the host operations applied (two reshapes and two changes of float format); then, after each launch,
  that launch's arrays replaced by what its write-backs leave and every other buffer as it was. The
  third launch's proof data is a PARAMETER here (any data over the entry contents that meets the
  body obligation and hands the plain invariant in and out), so this module says nothing about what
  that launch computes. The run ends with every unscoped buffer at the last contents, from which the
  six arguments read back as launched (no item writes one) and the result array reads as whatever the
  third launch's write-backs leave.
-/
import proofs.«181425_j56727928045732_2_alg».proof.Proof.Gen.KernelIdeal.Launch
import proofs.«181425_j56727928045732_2_alg».proof.Proof.Gen.KernelIdeal.Skeleton
import proofs.«181425_j56727928045732_2_alg».proof.Proof.Gen.KernelIdeal.Points
import proofs.«181425_j56727928045732_2_alg».proof.Proof.FrameR0
import proofs.«181425_j56727928045732_2_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (D2 : ((c : Dev nD) → (b : Ref sig .tc) → Buf (Elt F) ((c : Thread nD τ).loc b)) → (c : Dev nD) → Dat τ (Elt F) Unit ℕ (UR sig nD τ) ℕ cfg2 c)
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the four host operations (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third launch. -/
def W4 (c : Dev nD) : Valuation τ sig (Elt F) :=
  Pipeline.withArrays spec2 c (W3 m ρ c) fun w => (D2 (V3 m ρ) c).arrAt w cfg2.N
theorem W4_arr (c : Dev nD) (w : Fin cfg2.W) :
    W4 D2 m ρ c (Proc.devRef .tc (Pipeline.arrRef spec2 w)) = (D2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 D2 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 D2 m ρ c b
theorem hF2 (c : Dev nD) (w : Fin cfg2.W) : (D2 (V3 m ρ) c).arrAt w cfg2.N = V4 D2 m ρ c (Pipeline.arrRef spec2 w) :=
  (W4_arr D2 m ρ c w).symm
theorem hrest2 (c : Dev nD) : ∀ b, b ∉ Finset.univ.image (Pipeline.arrRef spec2) → V4 D2 m ρ c b = V3 m ρ c b :=
  fun b hb => W4_of_ne D2 m ρ c b fun w e => hb (Finset.mem_image.mpr ⟨w, Finset.mem_univ _, e⟩)

/-- The host operations write `main_v0 … main_v3` only: any other buffer is as launched. -/
theorem host_keeps (c : Dev nD) (b : Ref sig .tc) (hb : b ≠ main_v0 ∧ b ≠ main_v1 ∧ b ≠ main_v2 ∧ b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W4_main_arg0 (c : Dev nD) : W4 D2 m ρ c (Proc.devRef .tc main_arg0) = m ((c : Thread nD τ).loc main_arg0) :=
  calc W4 D2 m ρ c (Proc.devRef .tc main_arg0)
    _ = W3 m ρ c (Proc.devRef .tc main_arg0) := W4_of_ne D2 m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := host_keeps m ρ c main_arg0 (by decide)
    _ = m ((c : Thread nD τ).loc main_arg0) := rfl
theorem W4_main_arg1 (c : Dev nD) : W4 D2 m ρ c (Proc.devRef .tc main_arg1) = m ((c : Thread nD τ).loc main_arg1) :=
  calc W4 D2 m ρ c (Proc.devRef .tc main_arg1)
    _ = W3 m ρ c (Proc.devRef .tc main_arg1) := W4_of_ne D2 m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := host_keeps m ρ c main_arg1 (by decide)
    _ = m ((c : Thread nD τ).loc main_arg1) := rfl
theorem W4_main_arg2 (c : Dev nD) : W4 D2 m ρ c (Proc.devRef .tc main_arg2) = m ((c : Thread nD τ).loc main_arg2) :=
  calc W4 D2 m ρ c (Proc.devRef .tc main_arg2)
    _ = W3 m ρ c (Proc.devRef .tc main_arg2) := W4_of_ne D2 m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := host_keeps m ρ c main_arg2 (by decide)
    _ = m ((c : Thread nD τ).loc main_arg2) := rfl
theorem W4_main_arg3 (c : Dev nD) : W4 D2 m ρ c (Proc.devRef .tc main_arg3) = m ((c : Thread nD τ).loc main_arg3) :=
  calc W4 D2 m ρ c (Proc.devRef .tc main_arg3)
    _ = W3 m ρ c (Proc.devRef .tc main_arg3) := W4_of_ne D2 m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := host_keeps m ρ c main_arg3 (by decide)
    _ = m ((c : Thread nD τ).loc main_arg3) := rfl
theorem W4_main_arg4 (c : Dev nD) : W4 D2 m ρ c (Proc.devRef .tc main_arg4) = m ((c : Thread nD τ).loc main_arg4) :=
  calc W4 D2 m ρ c (Proc.devRef .tc main_arg4)
    _ = W3 m ρ c (Proc.devRef .tc main_arg4) := W4_of_ne D2 m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := host_keeps m ρ c main_arg4 (by decide)
    _ = m ((c : Thread nD τ).loc main_arg4) := rfl
theorem W4_main_arg5 (c : Dev nD) : W4 D2 m ρ c (Proc.devRef .tc main_arg5) = m ((c : Thread nD τ).loc main_arg5) :=
  calc W4 D2 m ρ c (Proc.devRef .tc main_arg5)
    _ = W3 m ρ c (Proc.devRef .tc main_arg5) := W4_of_ne D2 m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := host_keeps m ρ c main_arg5 (by decide)
    _ = m ((c : Thread nD τ).loc main_arg5) := rfl

/-- The result array after the run: what the third launch's write-backs leave in its output window's array. -/
theorem W4_result (c : Dev nD) : W4 D2 m ρ c (Proc.devRef .tc main_v6) = (D2 (V3 m ρ) c).arrAt 5 cfg2.N :=
  W4_arr D2 m ρ c 5

/-- No launch has a prefetched table. -/
abbrev adm : (p : Fin 3) → (pcfgs (F := F) p).Adm := fun p => (cfgs p).toPCfg_adm
/-- Every launch's proof data, each at its own entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => D2 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 D2 m ρ c) ∗ ∃ r, prngReg c r)

variable (hA2 : ∀ V c w, (D2 V c).A w = V c (Pipeline.arrRef spec2 w))
  (hq2 : ∀ V c w, (D2 V c).q w = fullShare)
  (howed2 : ∀ V c t, (D2 V c).owed t = 0)
  (hrec2 : ∀ V c t, (D2 V c).recorded t = Set.univ)
  (hbody2 : ∀ V c, BodyObligation (D2 V c) (defs₀ (F := F)) Variants.none () Set.univ)
  (hin2 : ∀ V c, Pipeline.ΦA spec2 c ⊢ (D2 V c).Φ 0)
  (hout2 : ∀ V c, (D2 V c).Φ (Fin.last cfg2.N) ⊢ Pipeline.ΦA spec2 c)

set_option backward.isDefEq.respectTransparency.types false in
/-- Launch 0 as a segment over the thread state: entered with every unscoped buffer at `W1`, left with them at
    `W2`. Its arrays are split out of the unscoped buffers and put back at what the write-backs leave; the
    generator register goes into the launch's invariant and comes back; nothing is owed; the kernel has no semaphore
    of its own. -/
def reg0 : Pipeline.RegionSeg (pcfgs (F := F)) adm (pdats D2 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats D2 m ρ) launch0.win launch0.arr_whole c
      ((pdats D2 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D2 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats D2 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D2 m ρ) ((pdats D2 m ρ 0 c).share_full fun _ => rfl)
      (V1 m ρ c) (V2 m ρ c) ((pdats D2 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment over the thread state: entered with every unscoped buffer at `W2`, left with them at
    `W3`. Its arrays are split out of the unscoped buffers and put back at what the write-backs leave; the
    generator register goes into the launch's invariant and comes back; nothing is owed; the kernel has no semaphore
    of its own. -/
def reg1 : Pipeline.RegionSeg (pcfgs (F := F)) adm (pdats D2 m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats D2 m ρ) launch1.win launch1.arr_whole c
      ((pdats D2 m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D2 m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats D2 m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D2 m ρ) ((pdats D2 m ρ 1 c).share_full fun _ => rfl)
      (V2 m ρ c) (V3 m ρ c) ((pdats D2 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment over the thread state: entered with every unscoped buffer at `W3`, left with them at
    `W4`. Its arrays are split out of the unscoped buffers and put back at what the write-backs leave; the
    generator register goes into the launch's invariant and comes back; nothing is owed; the kernel has no semaphore
    of its own. -/
def reg2 : Pipeline.RegionSeg (pcfgs (F := F)) adm (pdats D2 m ρ) () defs₀ 𝒱₀ L lv 2 where
  win := launch2.win.to₀
  block_pos := launch2.block_pos
  stage_whole := launch2.stage_whole
  K := PEmpty
  osem k := k.elim
  ho := Pipeline.OwnSemFacts.none _
  hbody c := (hbody2 (V3 m ρ) c).loose
  hwaits := Pipeline.hwaits_of_owed_zero _ _ _ _ L lv 2 fun c t => howed2 (V3 m ρ) c t
  pre c := iprop(StableHlo.held (c : Thread nD τ) (Pipeline.ucRefs τ sig) (W3 m ρ c) ∗ R c)
  post c := iprop(Tₙ D2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats D2 m ρ) launch2.win launch2.arr_whole c
      ((pdats D2 m ρ 2 c).share_full fun w => hq2 (V3 m ρ) c w) (V3 m ρ c) fun w => hA2 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D2 m ρ 2 c).owed 0 = 0 from howed2 (V3 m ρ) c 0]
      icases HO with ⟨%W, HO⟩; iexists W; isplitr; · ipureintro; exact fun _ _ => Or.inl ((Set.ext_iff.mp (hrec2 (V3 m ρ) c 0) _).mpr trivial)
      iexact HO
    isplitl [Hp]; · iexact Hp
    iexact Hrest
  hin c := by
    refine (?_ : _ ⊢ Pipeline.ΦA spec2 c).trans (show Pipeline.ΦA spec2 c ⊢ (pdats D2 m ρ 2 c).Φ 0 from hin2 (V3 m ρ) c); unfold Pipeline.ΦA
    iintro ⟨Hp, -, Hr⟩
    isplitl [Hr]; · iexact Hr
    iexact Hp
  hout c := by
    rw [Pipeline.ownSems0_none]; refine (show (pdats D2 m ρ 2 c).Φ (Fin.last _) ⊢ Pipeline.ΦA spec2 c from hout2 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D2 m ρ) ((pdats D2 m ρ 2 c).share_full fun w => hq2 (V3 m ρ) c w)
      (V3 m ρ c) (V4 D2 m ρ c) ((pdats D2 m ρ 2 c).arrAt · cfg2.N) (hF2 D2 m ρ c) (hrest2 D2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats D2 m ρ 2 c).owed (Fin.last _) = 0 from howed2 (V3 m ρ) c _]
    icases HO with ⟨%W, -, HO⟩; iexists W; iexact HO

/-- The program's four items in order. -/
abbrev segs : List (Pipeline.Seg (pcfgs (F := F)) adm (pdats D2 m ρ) () defs₀ 𝒱₀ L lv) :=
  [ .host (hseg hostOps0 hostOps0_sub hostOps0_fresh' (W0 m ρ)),
    .region (reg0 D2 m ρ),
    .region (reg1 D2 m ρ),
    .region (reg2 D2 m ρ hA2 hq2 howed2 hrec2 hbody2 hin2 hout2) ]
theorem main_run (c : Dev nD) : main (F := F) c = Pipeline.Seg.run (segs D2 m ρ hA2 hq2 howed2 hrec2 hbody2 hin2 hout2) := (main_chain c).trans (by chain_rfl)

include hA2 hq2 howed2 hrec2 hbody2 hin2 hout2 in
set_option backward.isDefEq.respectTransparency.types false in
/-- THE RUN. From any memory with zero counters every weakly fair execution of the program terminates, nothing
    faulting, and in every final state each core's unscoped buffers hold the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 D2 m ρ c b) :=
  Pipeline.θ_run_regions_kit (pcfgs (F := F)) adm (pdats D2 m ρ) () cellOf_inj emb₁ defs₀ 𝒱₀ L lv m ρ main (segs D2 m ρ hA2 hq2 howed2 hrec2 hbody2 hin2 hout2)
    (fun c Q => by rw [main_run D2 m ρ hA2 hq2 howed2 hrec2 hbody2 hin2 hout2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D2 m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 D2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 D2 m ρ c) s')
      isplitl [Hh] <;> iassumption)
    (hQ := fun s h c => h c)

include hA2 hq2 howed2 hrec2 hbody2 hin2 hout2 in
/-- The run's post read at the result and the arguments: the result array holds what the third launch's write-backs
    leave, and each argument is as launched. -/
theorem run_post : θ_run defs (onTc (τ := τ) (main (F := F))) ⟨m, fun _ => 0, ρ⟩ (fun r => ∀ c : Dev nD,
      r.2.mem ((c.tc : Thread nD τ).loc main_v6) = (D2 (V3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v6 (by decide))).trans (W4_result D2 m ρ c),
      (h c _ (mem_uc main_arg0 (by decide))).trans (W4_main_arg0 D2 m ρ c),
      (h c _ (mem_uc main_arg1 (by decide))).trans (W4_main_arg1 D2 m ρ c),
      (h c _ (mem_uc main_arg2 (by decide))).trans (W4_main_arg2 D2 m ρ c),
      (h c _ (mem_uc main_arg3 (by decide))).trans (W4_main_arg3 D2 m ρ c),
      (h c _ (mem_uc main_arg4 (by decide))).trans (W4_main_arg4 D2 m ρ c),
      (h c _ (mem_uc main_arg5 (by decide))).trans (W4_main_arg5 D2 m ρ c)⟩)
    (run_all D2 m ρ hA2 hq2 howed2 hrec2 hbody2 hin2 hout2)

include hA2 hq2 howed2 hrec2 hbody2 hin2 hout2 in
/-- THE FRAME: the program runs to the end, nothing faulting, and its six argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_post D2 m ρ hA2 hq2 howed2 hrec2 hbody2 hin2 hout2)

end

end Cert.KernelIdeal.Hand

end
-- ==== Proof.FrameR2.lean ====
/- REGION 2 of @main: the main kernel on its grid of 8 x 4 x 4 = 128 points, whose position mod 4 is the K-step k.
   One f32 accumulator of 1024 x 1024 lives in a scratch buffer the kernel carries from point to point. At a point with
   k = 0 the accumulator is filled with zeros first; at every point the product of the point's two bf16 blocks (contracted
   along their second axes) is added to it. So after point n the accumulator holds, when n mod 4 = 0, the zero fill plus
   the point's product, and otherwise what it held after point n - 1 plus the point's product: the partial sum of the
   products over the K-steps 0 .. k of the current output tile. Only at the points with k = 3 the epilogue runs: it adds
   to the finished sum the low-rank correction (the projection block rounded to bf16 times the second factor's block,
   contracted along the rank axis) and the bias row broadcast over the rows, and stores the result into the output
   window, which is written back at exactly those points; at the other points the output window is left untouched and is
   not written back. The five input windows hold their blocks of the arrays as the region finds them at every point.
   Stated at any float model F and at a parameter V, the buffer contents when the region is entered. -/
import proofs.«181425_j56727928045732_2_alg».proof.Proof.Gen.KernelIdeal.Launch
import proofs.«181425_j56727928045732_2_alg».proof.Proof.Gen.KernelIdeal.Skeleton
import proofs.«181425_j56727928045732_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, fetched there or not (where it is
    not fetched the block index has not moved since the point before), for any proof data whose array is V's and whose
    body leaves the block in place: windows 0 to 4 in turn. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, in closed form over the grid -/

/-- The first condition: the K-step (grid coordinate 2) is 0. -/
abbrev cond2_0 (i : grid2.Coords) : Prop := (Scalar.cmpi .ne (Scalar.extui (Scalar.cmpi .eq (BitVec.ofNat 32 (i 2).val) 0#32)) 0#32) = 1#1
/-- It holds exactly at the points whose position is 0 mod 4. -/
theorem hcond2_0 : ∀ t : Fin cfg2.N, cond2_0 (grid2.coords t) ↔ t.val % 4 = 0 :=
  (by decide +kernel : ∀ t : Fin grid2.N, cond2_0 (grid2.coords t) ↔ t.val % 4 = 0)
/-- The second condition: the K-step is 3. -/
abbrev cond2_1 (i : grid2.Coords) : Prop := k2_cond2 i = 1#1
/-- It holds exactly at the points whose position is 3 mod 4. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The five input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the K-step is not 3 the output window is idle (nothing is stored into it) -/
theorem idleAt2_5 : ∀ t : Fin cfg2.N, ¬cond2_1 (grid2.coords t) → cfg2.idle 5 (grid2.coords t) = true := by decide +kernel
/-- and is not written back; -/
theorem noFlush2_5 : ∀ t : Fin cfg2.N, ¬cond2_1 (grid2.coords t) → (cfg2.win 5).flush t = false := by decide +kernel
/-- where it is 3 the window is live. -/
theorem liveAt2_5 : ∀ t : Fin cfg2.N, cond2_1 (grid2.coords t) → cfg2.idle 5 (grid2.coords t) = false := by decide +kernel

/-! ## The scratch and the rest of the scoped memory -/

/-- The scratch operand: the whole accumulator buffer. -/
abbrev scM2 : Memref sig .tc .vmem S1024x1024 .f32 := Memref.whole cc2_scratch0

/-- The core's scoped buffers other than this region's staging buffers and its scratch (the staging buffers of the two
    regions before it), each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class's invariant spelt out: those buffers, the scratch owned whole at some contents, and the generator register
    at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2 fullShare d)) ∗ (∃ r, prngReg c r)) := by
  unfold Pipeline.ΦA; rw [scopedRest2_eq]; simp only [scM2, owns_whole]; try rfl

/-! ## Whole-buffer loads and stores -/

/-- The zero offsets of a rank-2 rectangle. -/
theorem r2_zeros : (![0, 0] : Fin 2 → ℕ) = fun _ => 0 := funext fun a => by fin_cases a <;> rfl

/-- A load of the whole buffer (the unit rectangle at zero offsets) reads its contents. -/
theorem r2_readAt_whole {S : Shape} {e : EltTy} {κ : Kind} {sp : Space} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld _ _ _).trans (View.ld_unit_zero h inb _)

/-- A store of the whole buffer, made last, leaves its payload whatever was stored before. -/
theorem r2_read_writes_whole {S : Shape} {e : EltTy} {κ : Kind} {sp : Space} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-! ## The body in each case of its two conditionals -/

set_option maxHeartbeats 1000000 in
/-- K-step 0 (first condition holds, second fails). On whole memrefs, the inputs at contents x0 .. x4, the output window at
    any contents xi5, the scratch at anything: the body zeroes the scratch, adds the product of x0 and x1, and stores
    nothing else; every other buffer is handed back as found. -/
theorem run2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole)
    (hc0 : cond2_0 i) (hc1 : ¬cond2_1 i)
    (x0 : Vec F S1024x1024 .bf16) (x1 : Vec F S1024x1024 .bf16) (x2 : Vec F S1x1024 .f32) (x3 : Vec F S1024x32 .f32) (x4 : Vec F S1024x32 .bf16) (xi5 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 (k2_pay1 (F := F)) x0 x1)) -∗ K ⟨⟩))
      ⊢ wp frame (wpE (defs₀ (F := F)) Variants.none c none) E (cc2__main_kernel i arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  sl_unfold_run_names
  rw [r2_read_writes_whole (S := S1024x1024) _ _ r2_zeros, View.readCov_cons_toLoadRect,
    r2_readAt_whole (S := S1024x1024) arg3.view f0 r2_zeros, r2_readAt_whole (S := S1024x1024) arg4.view f1 r2_zeros]

set_option maxHeartbeats 1000000 in
/-- K-steps 1 and 2 (both conditions fail). The scratch at contents xs: the body adds the product of x0 and x1 to xs and
    stores nothing else. -/
theorem run2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole)
    (hc0 : ¬cond2_0 i) (hc1 : ¬cond2_1 i)
    (x0 : Vec F S1024x1024 .bf16) (x1 : Vec F S1024x1024 .bf16) (x2 : Vec F S1x1024 .f32) (x3 : Vec F S1024x32 .f32) (x4 : Vec F S1024x32 .bf16) (xi5 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 xs x0 x1)) -∗ K ⟨⟩))
      ⊢ wp frame (wpE (defs₀ (F := F)) Variants.none c none) E (cc2__main_kernel i arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  rw [r2_read_writes_whole (S := S1024x1024) _ _ r2_zeros, r2_readAt_whole (S := S1024x1024) arg9.view fs r2_zeros,
    r2_readAt_whole (S := S1024x1024) arg3.view f0 r2_zeros, r2_readAt_whole (S := S1024x1024) arg4.view f1 r2_zeros]

set_option maxHeartbeats 1000000 in
/-- K-step 3 (first condition fails, second holds). The scratch at contents xs, the output window at anything: the body
    adds the product of x0 and x1 to xs, then stores into the output window the epilogue's value of the finished sum, the
    projection x3, the second factor x4 and the bias x2. -/
theorem run2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole)
    (hc0 : ¬cond2_0 i) (hc1 : cond2_1 i)
    (x0 : Vec F S1024x1024 .bf16) (x1 : Vec F S1024x1024 .bf16) (x2 : Vec F S1x1024 .f32) (x3 : Vec F S1024x32 .f32) (x4 : Vec F S1024x32 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k2_pay3 x3 x4 (k2_pay2 xs x0 x1) x2) ∗ owns (c : Thread nD τ) arg9 fullShare (k2_pay2 xs x0 x1)) -∗ K ⟨⟩))
      ⊢ wp frame (wpE (defs₀ (F := F)) Variants.none c none) E (cc2__main_kernel i arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  have e9 : View.readAt (Elt F) arg9.view (Rect.unit ![0, 0] S1024x1024.size inb_S1024x1024_S1024x1024_0_0).toLoadRect fs = View.read (Elt F) arg9.view fs := r2_readAt_whole (S := S1024x1024) arg9.view fs r2_zeros _
  have e3 : View.readAt (Elt F) arg3.view (Rect.unit ![0, 0] S1024x1024.size inb_S1024x1024_S1024x1024_0_0).toLoadRect f0 = View.read (Elt F) arg3.view f0 := r2_readAt_whole (S := S1024x1024) arg3.view f0 r2_zeros _
  have e4 : View.readAt (Elt F) arg4.view (Rect.unit ![0, 0] S1024x1024.size inb_S1024x1024_S1024x1024_0_0).toLoadRect f1 = View.read (Elt F) arg4.view f1 := r2_readAt_whole (S := S1024x1024) arg4.view f1 r2_zeros _
  isplitl [H5]
  · iexists _; isplitr
    swap; · iexact H5
    ipureintro
    sl_unfold_run_names
    rw [r2_read_writes_whole (S := S1024x1024) _ _ r2_zeros, View.readCov_cons_toLoadRect, e9, e3, e4,
      r2_readAt_whole (S := S1024x32) arg6.view f3 r2_zeros, r2_readAt_whole (S := S1024x32) arg7.view f4 r2_zeros,
      r2_readAt_whole (S := S1x1024) arg5.view f2 r2_zeros]
  iexists _; isplitr
  swap; · iexact HS
  ipureintro
  sl_unfold_run_names
  rw [r2_read_writes_whole (S := S1024x1024) _ _ r2_zeros, e9, e3, e4]

/-! ## The staging memrefs at a point, and the invariant with the scratch set apart -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x32 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .f32 := win2_5.stage (cfg2.slots t 5)
abbrev hs2_5 (t : Fin cfg2.N) : (ms2_5 t).IsWhole := hstage2_5 ((cfg2.slots t 5).cast nbuf2_5)

/-- The class's invariant hands over the other regions' staging buffers, the scratch at some contents, and the
    generator register; -/
theorem PhiA2_out (c : Dev nD) :
    (Pipeline.ΦA spec2 c : sProp 𝕄)
      ⊢ iprop(iprop(others2 c ∗ (∃ d, owns (c : Thread nD τ) scM2 fullShare d)) ∗ (∃ r, prngReg c r)) := by
  rw [PhiA2_eq]; unfold others2
  iintro ⟨⟨A1, A2, A3, A4, A5, A6, A7, A8, A9, A10, A11, A12, HS⟩, Hg⟩
  isplitl [A1 A2 A3 A4 A5 A6 A7 A8 A9 A10 A11 A12 HS]
  · isplitl [A1 A2 A3 A4 A5 A6 A7 A8 A9 A10 A11 A12]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    iexact HS
  iexact Hg

/-- and takes them back. -/
theorem PhiA2_in (c : Dev nD) :
    iprop(iprop(others2 c ∗ (∃ d, owns (c : Thread nD τ) scM2 fullShare d)) ∗ (∃ r, prngReg c r))
      ⊢ (Pipeline.ΦA spec2 c : sProp 𝕄) := by
  rw [PhiA2_eq]; unfold others2
  iintro ⟨⟨⟨A1, A2, A3, A4, A5, A6, A7, A8, A9, A10, A11, A12⟩, HS⟩, Hg⟩
  isplitl [A1 A2 A3 A4 A5 A6 A7 A8 A9 A10 A11 A12 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact HS
  iexact Hg

/-! ## The accumulator after each point -/

/-- THE ACCUMULATION. What the scratch holds after the body at position n: at a point with K-step 0 the product of the
    point's two blocks added to the zero fill; at any other point added to what the point before left. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At a point whose K-step is 0 the accumulator restarts from the zero fill. -/
theorem acc2_zero (c : Dev nD) (n : ℕ) (hn : n < cfg2.N) (h : n % 4 = 0) :
    acc2 V c n hn = k2_pay2 (k2_pay1 (F := F)) (iblk2 V c 0 ⟨n, hn⟩) (iblk2 V c 1 ⟨n, hn⟩) := by
  cases n with
  | zero => rfl
  | succ n => exact if_pos h

/-- At any other point it adds the point's product to what the point before left. -/
theorem acc2_step (c : Dev nD) (n : ℕ) (hn : n < cfg2.N) (h : n % 4 ≠ 0) :
    acc2 V c n hn = k2_pay2 (acc2 V c (n - 1) (Nat.lt_of_le_of_lt (Nat.sub_le _ _) hn)) (iblk2 V c 0 ⟨n, hn⟩) (iblk2 V c 1 ⟨n, hn⟩) := by
  cases n with
  | zero => exact absurd (Nat.zero_mod _) h
  | succ n => exact if_neg h

/-- What the epilogue stores into the output window at point t (meaningful where the K-step is 3). -/
def out2 (c : Dev nD) (t : Fin cfg2.N) : Vec F S1024x1024 .f32 :=
  k2_pay3 (iblk2 V c 3 t) (iblk2 V c 4 t) (acc2 V c t.val t.isLt) (iblk2 V c 2 t)

/-! ## The invariant: the scratch carried between points -/

/-- Before the first point the class's invariant (the scratch at anything); afterwards the other regions' staging
    buffers at anything, the scratch at what the point before left in it, the generator register at some state. -/
def PhiS2 (c : Dev nD) : (n : ℕ) → n ≤ cfg2.N → sProp 𝕄
  | 0, _ => Pipeline.ΦA spec2 c
  | n + 1, hn => iprop(iprop(others2 c ∗ owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 c ∗ owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop(iprop(others2 c ∗ owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core c at the entry contents V: after the body each input's buffer at its block, the
    output's at what the epilogue stores; the carried-scratch invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the K-step (the point's position mod 4) selects the
    case: 0 — the scratch, at anything or at what the point before left, is zeroed and the product added, the output
    window handed back untouched; 1 and 2 — the product is added to what the point before left, the output window
    untouched; 3 — the same and the epilogue stores into the output window. The invariant hands the scratch over and takes
    it back at this point's accumulator; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  have hN : t.val < 128 := lt_of_lt_of_eq t.isLt (show cfg2.N = 128 from N_2)
  by_cases h3 : t.val % 4 = 3
  · have hc0 : ¬cond2_0 (grid2.coords t) := fun h => by have := (hcond2_0 t).mp h; omega
    have hc1 : cond2_1 (grid2.coords t) := (hcond2_1 t).mpr h3
    have hz : t.val ≠ 0 := by omega
    rw [show (dat2 V c).leavesExact 5 t = owns (c : Thread nD τ) (ms2_5 t) fullShare ((dat2 V c).after 5 t) from by
      unfold Dat.leavesExact; rw [liveAt2_5 t hc1], after2_5]
    unfold out2
    rw [acc2_step V c t.val t.isLt (by omega)]
    rw [PhiS2_castSucc V c t, PhiS2_pos V c _ _ hz]
    iintro ⟨⟨⟨Hoth, HS⟩, Hg⟩, Ho, ⟨%d0, H0⟩, ⟨%d1, H1⟩, ⟨%d2, H2⟩, ⟨%d3, H3⟩, ⟨%d4, H4⟩, ⟨%d5, H5⟩⟩
    iapply (run2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hoth HS Hg]
    · isplitl [Hoth HS]
      · isplitl [Hoth]; · iexact Hoth
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond2_1 (grid2.coords t) := fun h => h3 ((hcond2_1 t).mp h)
    rw [Dat.leavesExact_idle (dat2 V c) 5 t (idleAt2_5 t hc1) (noFlush2_5 t hc1)]
    by_cases h0 : t.val % 4 = 0
    · have hc0 : cond2_0 (grid2.coords t) := (hcond2_0 t).mpr h0
      rw [acc2_zero V c t.val t.isLt h0]
      have hΦ : (dat2 V c).Φ t.castSucc ⊢ iprop(iprop(others2 c ∗ (∃ d, owns (c : Thread nD τ) scM2 fullShare d)) ∗ (∃ r, prngReg c r)) := by
        rw [PhiS2_castSucc V c t]
        by_cases hz : t.val = 0
        · rw [PhiS2_zero V c _ _ hz]; exact PhiA2_out c
        · rw [PhiS2_pos V c _ _ hz]
          iintro ⟨⟨Hoth, HS⟩, Hg⟩
          isplitl [Hoth HS]
          · isplitl [Hoth]; · iexact Hoth
            iexists _; iexact HS
          iexact Hg
      refine BIBase.Entails.trans (Laws.sep_mono_left hΦ) ?_
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc0 : ¬cond2_0 (grid2.coords t) := fun h => h0 ((hcond2_0 t).mp h)
      have hz : t.val ≠ 0 := fun e => h0 (by rw [e])
      rw [acc2_step V c t.val t.isLt h0]
      rw [PhiS2_castSucc V c t, PhiS2_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) ((dat2 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_in c)
  iintro ⟨⟨Hoth, HS⟩, Hg⟩
  isplitl [Hoth HS]
  · isplitl [Hoth]; · iexact Hoth
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region2

end Cert.KernelIdeal.Hand

end
-- ==== Proof.KernelFrame.lean ====
/-
  The kernel's frame: its program runs to the end, nothing faulting, and leaves its six arguments as launched.
  The run of the four items at the third launch's proof data (the accumulator carried between grid points),
  read at the six argument arrays; it holds for any reading of the float values.
-/
import proofs.«181425_j56727928045732_2_alg».proof.Proof.FrameRun
import proofs.«181425_j56727928045732_2_alg».proof.Proof.FrameR2

noncomputable section
namespace Cert.KernelIdeal.Hand
open Cert.KernelIdeal Cert.KernelIdeal.Gen
open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_all (F := F) (fun V c => dat2 V c) m ρ (fun V c w => A_eq2 V c w) (fun _ _ _ => rfl) (fun _ _ _ => rfl) (fun _ _ _ => rfl)
    (fun V c => body_obligation2 V c) (fun V c => hin2 V c) (fun V c => hout2 V c)

end Cert.KernelIdeal.Hand
end
-- ==== Proof.Bits.FrameR0.lean ====
/-
  The first launch: the activation smoothed, projected and quantized, 256 rows at a time.

  The grid has 32 points; point `t` reads rows `256·t … 256·t+255` of the activation (all 4096 columns),
  the one row of smoothing factors and the whole 4096 × 32 down-projection (the same block at every
  point), and writes the same rows of two arrays: the quantized smoothed activation (256 × 4096) and
  the projection of the smoothed activation (256 × 32). Each output block depends only on the input
  blocks of its own point and no block is written twice. This module says what the body leaves in the
  two output buffers (one store each, of a pure function of the three loaded blocks), proves that the
  body runs to its end on any buffers, and packages this as the launch's proof data at ANY contents
  `V` of the buffers on entry.
-/
import proofs.«181425_j56727928045732_2_alg».proof.Proof.Gen.Kernel.Launch
import proofs.«181425_j56727928045732_2_alg».proof.Proof.Gen.Kernel.Skeleton
import proofs.«181425_j56727928045732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the block was brought in there or is the one
    already present (the smoothing row and the down-projection never move), for any proof data over `V`'s arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each buffer whole. -/
abbrev r0_0 : Rect S256x4096 := Rect.unit (s := S256x4096) ![0, 0] S256x4096.size inb_S256x4096_S256x4096_0_0
abbrev r0_1 : Rect S1x4096 := Rect.unit (s := S1x4096) ![0, 0] S1x4096.size inb_S1x4096_S1x4096_0_0
abbrev r0_2 : Rect S4096x32 := Rect.unit (s := S4096x32) ![0, 0] S4096x32.size inb_S4096x32_S4096x32_0_0
abbrev r0_4 : Rect S256x32 := Rect.unit (s := S256x32) ![0, 0] S256x32.size inb_S256x32_S256x32_0_0

/-- What the body leaves in the quantized output's buffer: its one store, of the quantization of the smoothed block. -/
def out0_3 (x0 : Vec F S256x4096 .f32) (x1 : Vec F S1x4096 .f32) : Vec F S256x4096 .bf16 :=
  View.canon [⟨r0_0, k0_pay3 (View.ld x0 r0_0) (View.ld x1 r0_1)⟩]
/-- What the body leaves in the projection's buffer: its one store, of the smoothed block times the down-projection. -/
def out0_4 (x0 : Vec F S256x4096 .f32) (x1 : Vec F S1x4096 .f32) (x2 : Vec F S4096x32 .bf16) : Vec F S256x32 .f32 :=
  View.canon [⟨r0_4, k0_pay2 (View.ld x0 r0_0) (View.ld x1 r0_1) (View.ld x2 r0_2)⟩]

/-- Each store covers its buffer. -/
theorem cover0_3 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y
theorem cover0_4 (p0 : Vec F S256x32 .f32) (y : S256x32.Idx) :
    ∃ pc ∈ ([⟨r0_4, p0⟩] : List (View.Piece (Elt F) S256x32 .f32)), y ∈ pc.1.set :=
  View.cover_of_tiled [⟨r0_4, p0⟩] S256x32.size (by rfl) y

set_option maxHeartbeats 1000000 in
/-- The body on whole buffers, the inputs' at contents `x0 x1 x2` and the outputs' at anything, runs to the end with
    the inputs' as they were and the outputs' at `out0_3`, `out0_4` of the inputs'. -/
theorem sound_kernel0 (c : Dev nD) (E : Set ℕ) (i : grid0.Coords) (arg1 : Memref sig .tc .vmem S256x4096 .f32) (harg1 : arg1.IsWhole) (arg2 : Memref sig .tc .vmem S1x4096 .f32) (harg2 : arg2.IsWhole) (arg3 : Memref sig .tc .vmem S4096x32 .bf16) (harg3 : arg3.IsWhole) (arg4 : Memref sig .tc .vmem S256x4096 .bf16) (harg4 : arg4.IsWhole) (arg5 : Memref sig .tc .vmem S256x32 .f32) (harg5 : arg5.IsWhole)
    (x0 : Vec F S256x4096 .f32) (x1 : Vec F S1x4096 .f32) (x2 : Vec F S4096x32 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__prequant_x_kernel i arg1 harg1 arg2 harg2 arg3 harg3 arg4 harg4 arg5 harg5) K := by
  simp only [cc0__prequant_x_kernel_eq_skeleton]; unfold cc0__prequant_x_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The launch's proof data on core `c`: the arrays as found; after the body at point `t` each input's buffer at its
    block and the two outputs' at `out0_3`, `out0_4` of the input blocks; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Bits.FrameR1.lean ====
/-
  The second launch: the weight quantized, 256 rows at a time.

  The grid has 16 points; point `t` reads rows `256·t … 256·t+255` of the weight (all 4096 columns)
  and writes the same rows of the quantized weight. A block of the output depends on the same block
  of the input and on nothing else, and no block is written twice, so the array the launch leaves is
  read block by block. This module says what the body leaves in the output window's buffer (the
  quantization of the block it was handed), proves that the body runs to its end on any buffers, and
  packages the two as the launch's proof data at ANY contents `V` of the buffers on entry.
-/
import proofs.«181425_j56727928045732_2_alg».proof.Proof.Gen.Kernel.Launch
import proofs.«181425_j56727928045732_2_alg».proof.Proof.Gen.Kernel.Skeleton
import proofs.«181425_j56727928045732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's buffer holds its block at every point, for any proof data over `V`'s arrays whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches: the whole 256 × 4096 buffer. -/
abbrev r1_0 : Rect S256x4096 := Rect.unit (s := S256x4096) ![0, 0] S256x4096.size inb_S256x4096_S256x4096_0_0

/-- What the body leaves in the output window's buffer: its one store, of the quantization of the block it loaded. -/
def out1_1 (x0 : Vec F S256x4096 .f32) : Vec F S256x4096 .bf16 :=
  View.canon [⟨r1_0, k1_pay1 (View.ld x0 r1_0)⟩]

/-- That store covers the buffer. -/
theorem cover1_1 (p0 : Vec F S256x4096 .bf16) (y : S256x4096.Idx) :
    ∃ pc ∈ ([⟨r1_0, p0⟩] : List (View.Piece (Elt F) S256x4096 .bf16)), y ∈ pc.1.set :=
  View.cover_of_tiled [⟨r1_0, p0⟩] S256x4096.size (by rfl) y

set_option maxHeartbeats 1000000 in
/-- The body on whole buffers, the input's at contents `x0` and the output's at anything, runs to the end with the
    input's as it was and the output's at `out1_1 x0`. -/
theorem sound_kernel1 (c : Dev nD) (E : Set ℕ) (i : grid1.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__prequant_w_kernel i arg1 harg1 arg2 harg2) K := by
  simp only [cc1__prequant_w_kernel_eq_skeleton]; unfold cc1__prequant_w_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The launch's proof data on core `c`: the arrays as found; after the body at point `t` the input's buffer at its
    block and the output's at the quantization of that block; the invariant the plain one (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.Bits.FrameRun.lean ====
/-
  The whole run: four host operations, then the three launches one after the other.

  Between two items each core holds every unscoped buffer at known contents: the launch memory; then
  the host operations applied (two reshapes and two changes of float format); then, after each launch,
  that launch's arrays replaced by what its write-backs leave and every other buffer as it was. The
  third launch's proof data is a PARAMETER here (any data over the entry contents that meets the
  body obligation and hands the plain invariant in and out), so this module says nothing about what
  that launch computes. The run ends with every unscoped buffer at the last contents, from which the
  six arguments read back as launched (no item writes one) and the result array reads as whatever the
  third launch's write-backs leave.
-/
import proofs.«181425_j56727928045732_2_alg».proof.Proof.Gen.Kernel.Launch
import proofs.«181425_j56727928045732_2_alg».proof.Proof.Gen.Kernel.Skeleton
import proofs.«181425_j56727928045732_2_alg».proof.Proof.Gen.Kernel.Points
import proofs.«181425_j56727928045732_2_alg».proof.Proof.Bits.FrameR0
import proofs.«181425_j56727928045732_2_alg».proof.Proof.Bits.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (D2 : ((c : Dev nD) → (b : Ref sig .tc) → Buf (Elt F) ((c : Thread nD τ).loc b)) → (c : Dev nD) → Dat τ (Elt F) Unit ℕ (UR sig nD τ) ℕ cfg2 c)
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the four host operations (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third launch. -/
def W4 (c : Dev nD) : Valuation τ sig (Elt F) :=
  Pipeline.withArrays spec2 c (W3 m ρ c) fun w => (D2 (V3 m ρ) c).arrAt w cfg2.N
theorem W4_arr (c : Dev nD) (w : Fin cfg2.W) :
    W4 D2 m ρ c (Proc.devRef .tc (Pipeline.arrRef spec2 w)) = (D2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 D2 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 D2 m ρ c b
theorem hF2 (c : Dev nD) (w : Fin cfg2.W) : (D2 (V3 m ρ) c).arrAt w cfg2.N = V4 D2 m ρ c (Pipeline.arrRef spec2 w) :=
  (W4_arr D2 m ρ c w).symm
theorem hrest2 (c : Dev nD) : ∀ b, b ∉ Finset.univ.image (Pipeline.arrRef spec2) → V4 D2 m ρ c b = V3 m ρ c b :=
  fun b hb => W4_of_ne D2 m ρ c b fun w e => hb (Finset.mem_image.mpr ⟨w, Finset.mem_univ _, e⟩)

/-- The host operations write `main_v0 … main_v3` only: any other buffer is as launched. -/
theorem host_keeps (c : Dev nD) (b : Ref sig .tc) (hb : b ≠ main_v0 ∧ b ≠ main_v1 ∧ b ≠ main_v2 ∧ b ≠ main_v3) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W4_main_arg0 (c : Dev nD) : W4 D2 m ρ c (Proc.devRef .tc main_arg0) = m ((c : Thread nD τ).loc main_arg0) :=
  calc W4 D2 m ρ c (Proc.devRef .tc main_arg0)
    _ = W3 m ρ c (Proc.devRef .tc main_arg0) := W4_of_ne D2 m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := host_keeps m ρ c main_arg0 (by decide)
    _ = m ((c : Thread nD τ).loc main_arg0) := rfl
theorem W4_main_arg1 (c : Dev nD) : W4 D2 m ρ c (Proc.devRef .tc main_arg1) = m ((c : Thread nD τ).loc main_arg1) :=
  calc W4 D2 m ρ c (Proc.devRef .tc main_arg1)
    _ = W3 m ρ c (Proc.devRef .tc main_arg1) := W4_of_ne D2 m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := host_keeps m ρ c main_arg1 (by decide)
    _ = m ((c : Thread nD τ).loc main_arg1) := rfl
theorem W4_main_arg2 (c : Dev nD) : W4 D2 m ρ c (Proc.devRef .tc main_arg2) = m ((c : Thread nD τ).loc main_arg2) :=
  calc W4 D2 m ρ c (Proc.devRef .tc main_arg2)
    _ = W3 m ρ c (Proc.devRef .tc main_arg2) := W4_of_ne D2 m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := host_keeps m ρ c main_arg2 (by decide)
    _ = m ((c : Thread nD τ).loc main_arg2) := rfl
theorem W4_main_arg3 (c : Dev nD) : W4 D2 m ρ c (Proc.devRef .tc main_arg3) = m ((c : Thread nD τ).loc main_arg3) :=
  calc W4 D2 m ρ c (Proc.devRef .tc main_arg3)
    _ = W3 m ρ c (Proc.devRef .tc main_arg3) := W4_of_ne D2 m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := host_keeps m ρ c main_arg3 (by decide)
    _ = m ((c : Thread nD τ).loc main_arg3) := rfl
theorem W4_main_arg4 (c : Dev nD) : W4 D2 m ρ c (Proc.devRef .tc main_arg4) = m ((c : Thread nD τ).loc main_arg4) :=
  calc W4 D2 m ρ c (Proc.devRef .tc main_arg4)
    _ = W3 m ρ c (Proc.devRef .tc main_arg4) := W4_of_ne D2 m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := host_keeps m ρ c main_arg4 (by decide)
    _ = m ((c : Thread nD τ).loc main_arg4) := rfl
theorem W4_main_arg5 (c : Dev nD) : W4 D2 m ρ c (Proc.devRef .tc main_arg5) = m ((c : Thread nD τ).loc main_arg5) :=
  calc W4 D2 m ρ c (Proc.devRef .tc main_arg5)
    _ = W3 m ρ c (Proc.devRef .tc main_arg5) := W4_of_ne D2 m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := host_keeps m ρ c main_arg5 (by decide)
    _ = m ((c : Thread nD τ).loc main_arg5) := rfl

/-- The result array after the run: what the third launch's write-backs leave in its output window's array. -/
theorem W4_result (c : Dev nD) : W4 D2 m ρ c (Proc.devRef .tc main_v6) = (D2 (V3 m ρ) c).arrAt 5 cfg2.N :=
  W4_arr D2 m ρ c 5

/-- No launch has a prefetched table. -/
abbrev adm : (p : Fin 3) → (pcfgs (F := F) p).Adm := fun p => (cfgs p).toPCfg_adm
/-- Every launch's proof data, each at its own entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => D2 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 D2 m ρ c) ∗ ∃ r, prngReg c r)

variable (hA2 : ∀ V c w, (D2 V c).A w = V c (Pipeline.arrRef spec2 w))
  (hq2 : ∀ V c w, (D2 V c).q w = fullShare)
  (howed2 : ∀ V c t, (D2 V c).owed t = 0)
  (hrec2 : ∀ V c t, (D2 V c).recorded t = Set.univ)
  (hbody2 : ∀ V c, BodyObligation (D2 V c) (defs₀ (F := F)) Variants.none () Set.univ)
  (hin2 : ∀ V c, Pipeline.ΦA spec2 c ⊢ (D2 V c).Φ 0)
  (hout2 : ∀ V c, (D2 V c).Φ (Fin.last cfg2.N) ⊢ Pipeline.ΦA spec2 c)

set_option backward.isDefEq.respectTransparency.types false in
/-- Launch 0 as a segment over the thread state: entered with every unscoped buffer at `W1`, left with them at
    `W2`. Its arrays are split out of the unscoped buffers and put back at what the write-backs leave; the
    generator register goes into the launch's invariant and comes back; nothing is owed; the kernel has no semaphore
    of its own. -/
def reg0 : Pipeline.RegionSeg (pcfgs (F := F)) adm (pdats D2 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats D2 m ρ) launch0.win launch0.arr_whole c
      ((pdats D2 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D2 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats D2 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D2 m ρ) ((pdats D2 m ρ 0 c).share_full fun _ => rfl)
      (V1 m ρ c) (V2 m ρ c) ((pdats D2 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment over the thread state: entered with every unscoped buffer at `W2`, left with them at
    `W3`. Its arrays are split out of the unscoped buffers and put back at what the write-backs leave; the
    generator register goes into the launch's invariant and comes back; nothing is owed; the kernel has no semaphore
    of its own. -/
def reg1 : Pipeline.RegionSeg (pcfgs (F := F)) adm (pdats D2 m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats D2 m ρ) launch1.win launch1.arr_whole c
      ((pdats D2 m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D2 m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats D2 m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D2 m ρ) ((pdats D2 m ρ 1 c).share_full fun _ => rfl)
      (V2 m ρ c) (V3 m ρ c) ((pdats D2 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment over the thread state: entered with every unscoped buffer at `W3`, left with them at
    `W4`. Its arrays are split out of the unscoped buffers and put back at what the write-backs leave; the
    generator register goes into the launch's invariant and comes back; nothing is owed; the kernel has no semaphore
    of its own. -/
def reg2 : Pipeline.RegionSeg (pcfgs (F := F)) adm (pdats D2 m ρ) () defs₀ 𝒱₀ L lv 2 where
  win := launch2.win.to₀
  block_pos := launch2.block_pos
  stage_whole := launch2.stage_whole
  K := PEmpty
  osem k := k.elim
  ho := Pipeline.OwnSemFacts.none _
  hbody c := (hbody2 (V3 m ρ) c).loose
  hwaits := Pipeline.hwaits_of_owed_zero _ _ _ _ L lv 2 fun c t => howed2 (V3 m ρ) c t
  pre c := iprop(StableHlo.held (c : Thread nD τ) (Pipeline.ucRefs τ sig) (W3 m ρ c) ∗ R c)
  post c := iprop(Tₙ D2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats D2 m ρ) launch2.win launch2.arr_whole c
      ((pdats D2 m ρ 2 c).share_full fun w => hq2 (V3 m ρ) c w) (V3 m ρ c) fun w => hA2 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D2 m ρ 2 c).owed 0 = 0 from howed2 (V3 m ρ) c 0]
      icases HO with ⟨%W, HO⟩; iexists W; isplitr; · ipureintro; exact fun _ _ => Or.inl ((Set.ext_iff.mp (hrec2 (V3 m ρ) c 0) _).mpr trivial)
      iexact HO
    isplitl [Hp]; · iexact Hp
    iexact Hrest
  hin c := by
    refine (?_ : _ ⊢ Pipeline.ΦA spec2 c).trans (show Pipeline.ΦA spec2 c ⊢ (pdats D2 m ρ 2 c).Φ 0 from hin2 (V3 m ρ) c); unfold Pipeline.ΦA
    iintro ⟨Hp, -, Hr⟩
    isplitl [Hr]; · iexact Hr
    iexact Hp
  hout c := by
    rw [Pipeline.ownSems0_none]; refine (show (pdats D2 m ρ 2 c).Φ (Fin.last _) ⊢ Pipeline.ΦA spec2 c from hout2 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D2 m ρ) ((pdats D2 m ρ 2 c).share_full fun w => hq2 (V3 m ρ) c w)
      (V3 m ρ c) (V4 D2 m ρ c) ((pdats D2 m ρ 2 c).arrAt · cfg2.N) (hF2 D2 m ρ c) (hrest2 D2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats D2 m ρ 2 c).owed (Fin.last _) = 0 from howed2 (V3 m ρ) c _]
    icases HO with ⟨%W, -, HO⟩; iexists W; iexact HO

/-- The program's four items in order. -/
abbrev segs : List (Pipeline.Seg (pcfgs (F := F)) adm (pdats D2 m ρ) () defs₀ 𝒱₀ L lv) :=
  [ .host (hseg hostOps0 hostOps0_sub hostOps0_fresh' (W0 m ρ)),
    .region (reg0 D2 m ρ),
    .region (reg1 D2 m ρ),
    .region (reg2 D2 m ρ hA2 hq2 howed2 hrec2 hbody2 hin2 hout2) ]
theorem main_run (c : Dev nD) : main (F := F) c = Pipeline.Seg.run (segs D2 m ρ hA2 hq2 howed2 hrec2 hbody2 hin2 hout2) := (main_chain c).trans (by chain_rfl)

include hA2 hq2 howed2 hrec2 hbody2 hin2 hout2 in
set_option backward.isDefEq.respectTransparency.types false in
/-- THE RUN. From any memory with zero counters every weakly fair execution of the program terminates, nothing
    faulting, and in every final state each core's unscoped buffers hold the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 D2 m ρ c b) :=
  Pipeline.θ_run_regions_kit (pcfgs (F := F)) adm (pdats D2 m ρ) () cellOf_inj emb₁ defs₀ 𝒱₀ L lv m ρ main (segs D2 m ρ hA2 hq2 howed2 hrec2 hbody2 hin2 hout2)
    (fun c Q => by rw [main_run D2 m ρ hA2 hq2 howed2 hrec2 hbody2 hin2 hout2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ D2 m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 D2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 D2 m ρ c) s')
      isplitl [Hh] <;> iassumption)
    (hQ := fun s h c => h c)

include hA2 hq2 howed2 hrec2 hbody2 hin2 hout2 in
/-- The run's post read at the result and the arguments: the result array holds what the third launch's write-backs
    leave, and each argument is as launched. -/
theorem run_post : θ_run defs (onTc (τ := τ) (main (F := F))) ⟨m, fun _ => 0, ρ⟩ (fun r => ∀ c : Dev nD,
      r.2.mem ((c.tc : Thread nD τ).loc main_v6) = (D2 (V3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v6 (by decide))).trans (W4_result D2 m ρ c),
      (h c _ (mem_uc main_arg0 (by decide))).trans (W4_main_arg0 D2 m ρ c),
      (h c _ (mem_uc main_arg1 (by decide))).trans (W4_main_arg1 D2 m ρ c),
      (h c _ (mem_uc main_arg2 (by decide))).trans (W4_main_arg2 D2 m ρ c),
      (h c _ (mem_uc main_arg3 (by decide))).trans (W4_main_arg3 D2 m ρ c),
      (h c _ (mem_uc main_arg4 (by decide))).trans (W4_main_arg4 D2 m ρ c),
      (h c _ (mem_uc main_arg5 (by decide))).trans (W4_main_arg5 D2 m ρ c)⟩)
    (run_all D2 m ρ hA2 hq2 howed2 hrec2 hbody2 hin2 hout2)

include hA2 hq2 howed2 hrec2 hbody2 hin2 hout2 in
/-- THE FRAME: the program runs to the end, nothing faulting, and its six argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_post D2 m ρ hA2 hq2 howed2 hrec2 hbody2 hin2 hout2)

end

end Cert.Kernel.Hand

end
-- ==== Proof.Bits.FrameR2.lean ====
/- REGION 2 of @main: the main kernel on its grid of 8 x 4 x 4 = 128 points, whose position mod 4 is the K-step k.
   One f32 accumulator of 1024 x 1024 lives in a scratch buffer the kernel carries from point to point. At a point with
   k = 0 the accumulator is filled with zeros first; at every point the product of the point's two bf16 blocks (contracted
   along their second axes) is added to it. So after point n the accumulator holds, when n mod 4 = 0, the zero fill plus
   the point's product, and otherwise what it held after point n - 1 plus the point's product: the partial sum of the
   products over the K-steps 0 .. k of the current output tile. Only at the points with k = 3 the epilogue runs: it adds
   to the finished sum the low-rank correction (the projection block rounded to bf16 times the second factor's block,
   contracted along the rank axis) and the bias row broadcast over the rows, and stores the result into the output
   window, which is written back at exactly those points; at the other points the output window is left untouched and is
   not written back. The five input windows hold their blocks of the arrays as the region finds them at every point.
   Stated at any float model F and at a parameter V, the buffer contents when the region is entered. -/
import proofs.«181425_j56727928045732_2_alg».proof.Proof.Gen.Kernel.Launch
import proofs.«181425_j56727928045732_2_alg».proof.Proof.Gen.Kernel.Skeleton
import proofs.«181425_j56727928045732_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, fetched there or not (where it is
    not fetched the block index has not moved since the point before), for any proof data whose array is V's and whose
    body leaves the block in place: windows 0 to 4 in turn. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, in closed form over the grid -/

/-- The first condition: the K-step (grid coordinate 2) is 0. -/
abbrev cond2_0 (i : grid2.Coords) : Prop := (Scalar.cmpi .ne (Scalar.extui (Scalar.cmpi .eq (BitVec.ofNat 32 (i 2).val) 0#32)) 0#32) = 1#1
/-- It holds exactly at the points whose position is 0 mod 4. -/
theorem hcond2_0 : ∀ t : Fin cfg2.N, cond2_0 (grid2.coords t) ↔ t.val % 4 = 0 :=
  (by decide +kernel : ∀ t : Fin grid2.N, cond2_0 (grid2.coords t) ↔ t.val % 4 = 0)
/-- The second condition: the K-step is 3. -/
abbrev cond2_1 (i : grid2.Coords) : Prop := k2_cond2 i = 1#1
/-- It holds exactly at the points whose position is 3 mod 4. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The five input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the K-step is not 3 the output window is idle (nothing is stored into it) -/
theorem idleAt2_5 : ∀ t : Fin cfg2.N, ¬cond2_1 (grid2.coords t) → cfg2.idle 5 (grid2.coords t) = true := by decide +kernel
/-- and is not written back; -/
theorem noFlush2_5 : ∀ t : Fin cfg2.N, ¬cond2_1 (grid2.coords t) → (cfg2.win 5).flush t = false := by decide +kernel
/-- where it is 3 the window is live. -/
theorem liveAt2_5 : ∀ t : Fin cfg2.N, cond2_1 (grid2.coords t) → cfg2.idle 5 (grid2.coords t) = false := by decide +kernel

/-! ## The scratch and the rest of the scoped memory -/

/-- The scratch operand: the whole accumulator buffer. -/
abbrev scM2 : Memref sig .tc .vmem S1024x1024 .f32 := Memref.whole cc2_scratch0

/-- The core's scoped buffers other than this region's staging buffers and its scratch (the staging buffers of the two
    regions before it), each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class's invariant spelt out: those buffers, the scratch owned whole at some contents, and the generator register
    at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2 fullShare d)) ∗ (∃ r, prngReg c r)) := by
  unfold Pipeline.ΦA; rw [scopedRest2_eq]; simp only [scM2, owns_whole]; try rfl

/-! ## Whole-buffer loads and stores -/

/-- The zero offsets of a rank-2 rectangle. -/
theorem r2_zeros : (![0, 0] : Fin 2 → ℕ) = fun _ => 0 := funext fun a => by fin_cases a <;> rfl

/-- A load of the whole buffer (the unit rectangle at zero offsets) reads its contents. -/
theorem r2_readAt_whole {S : Shape} {e : EltTy} {κ : Kind} {sp : Space} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld _ _ _).trans (View.ld_unit_zero h inb _)

/-- A store of the whole buffer, made last, leaves its payload whatever was stored before. -/
theorem r2_read_writes_whole {S : Shape} {e : EltTy} {κ : Kind} {sp : Space} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩), View.canon_cons_unit_zero h inb]

/-! ## The body in each case of its two conditionals -/

set_option maxHeartbeats 1000000 in
/-- K-step 0 (first condition holds, second fails). On whole memrefs, the inputs at contents x0 .. x4, the output window at
    any contents xi5, the scratch at anything: the body zeroes the scratch, adds the product of x0 and x1, and stores
    nothing else; every other buffer is handed back as found. -/
theorem run2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole)
    (hc0 : cond2_0 i) (hc1 : ¬cond2_1 i)
    (x0 : Vec F S1024x1024 .bf16) (x1 : Vec F S1024x1024 .bf16) (x2 : Vec F S1x1024 .f32) (x3 : Vec F S1024x32 .f32) (x4 : Vec F S1024x32 .bf16) (xi5 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 (k2_pay1 (F := F)) x0 x1)) -∗ K ⟨⟩))
      ⊢ wp frame (wpE (defs₀ (F := F)) Variants.none c none) E (cc2__main_kernel i arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  sl_unfold_run_names
  rw [r2_read_writes_whole (S := S1024x1024) _ _ r2_zeros, View.readCov_cons_toLoadRect,
    r2_readAt_whole (S := S1024x1024) arg3.view f0 r2_zeros, r2_readAt_whole (S := S1024x1024) arg4.view f1 r2_zeros]

set_option maxHeartbeats 1000000 in
/-- K-steps 1 and 2 (both conditions fail). The scratch at contents xs: the body adds the product of x0 and x1 to xs and
    stores nothing else. -/
theorem run2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole)
    (hc0 : ¬cond2_0 i) (hc1 : ¬cond2_1 i)
    (x0 : Vec F S1024x1024 .bf16) (x1 : Vec F S1024x1024 .bf16) (x2 : Vec F S1x1024 .f32) (x3 : Vec F S1024x32 .f32) (x4 : Vec F S1024x32 .bf16) (xi5 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (k2_pay2 xs x0 x1)) -∗ K ⟨⟩))
      ⊢ wp frame (wpE (defs₀ (F := F)) Variants.none c none) E (cc2__main_kernel i arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact HS
  ipureintro
  rw [r2_read_writes_whole (S := S1024x1024) _ _ r2_zeros, r2_readAt_whole (S := S1024x1024) arg9.view fs r2_zeros,
    r2_readAt_whole (S := S1024x1024) arg3.view f0 r2_zeros, r2_readAt_whole (S := S1024x1024) arg4.view f1 r2_zeros]

set_option maxHeartbeats 1000000 in
/-- K-step 3 (first condition fails, second holds). The scratch at contents xs, the output window at anything: the body
    adds the product of x0 and x1 to xs, then stores into the output window the epilogue's value of the finished sum, the
    projection x3, the second factor x4 and the bias x2. -/
theorem run2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x32 .f32) (harg6 : arg6.IsWhole) (arg7 : Memref sig .tc .vmem S1024x32 .bf16) (harg7 : arg7.IsWhole) (arg8 : Memref sig .tc .vmem S1024x1024 .f32) (harg8 : arg8.IsWhole) (arg9 : Memref sig .tc .vmem S1024x1024 .f32) (harg9 : arg9.IsWhole)
    (hc0 : ¬cond2_0 i) (hc1 : cond2_1 i)
    (x0 : Vec F S1024x1024 .bf16) (x1 : Vec F S1024x1024 .bf16) (x2 : Vec F S1x1024 .f32) (x3 : Vec F S1024x32 .f32) (x4 : Vec F S1024x32 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k2_pay3 x3 x4 (k2_pay2 xs x0 x1) x2) ∗ owns (c : Thread nD τ) arg9 fullShare (k2_pay2 xs x0 x1)) -∗ K ⟨⟩))
      ⊢ wp frame (wpE (defs₀ (F := F)) Variants.none c none) E (cc2__main_kernel i arg3 harg3 arg4 harg4 arg5 harg5 arg6 harg6 arg7 harg7 arg8 harg8 arg9 harg9) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  have e9 : View.readAt (Elt F) arg9.view (Rect.unit ![0, 0] S1024x1024.size inb_S1024x1024_S1024x1024_0_0).toLoadRect fs = View.read (Elt F) arg9.view fs := r2_readAt_whole (S := S1024x1024) arg9.view fs r2_zeros _
  have e3 : View.readAt (Elt F) arg3.view (Rect.unit ![0, 0] S1024x1024.size inb_S1024x1024_S1024x1024_0_0).toLoadRect f0 = View.read (Elt F) arg3.view f0 := r2_readAt_whole (S := S1024x1024) arg3.view f0 r2_zeros _
  have e4 : View.readAt (Elt F) arg4.view (Rect.unit ![0, 0] S1024x1024.size inb_S1024x1024_S1024x1024_0_0).toLoadRect f1 = View.read (Elt F) arg4.view f1 := r2_readAt_whole (S := S1024x1024) arg4.view f1 r2_zeros _
  isplitl [H5]
  · iexists _; isplitr
    swap; · iexact H5
    ipureintro
    sl_unfold_run_names
    rw [r2_read_writes_whole (S := S1024x1024) _ _ r2_zeros, View.readCov_cons_toLoadRect, e9, e3, e4,
      r2_readAt_whole (S := S1024x32) arg6.view f3 r2_zeros, r2_readAt_whole (S := S1024x32) arg7.view f4 r2_zeros,
      r2_readAt_whole (S := S1x1024) arg5.view f2 r2_zeros]
  iexists _; isplitr
  swap; · iexact HS
  ipureintro
  sl_unfold_run_names
  rw [r2_read_writes_whole (S := S1024x1024) _ _ r2_zeros, e9, e3, e4]

/-! ## The staging memrefs at a point, and the invariant with the scratch set apart -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x32 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .f32 := win2_5.stage (cfg2.slots t 5)
abbrev hs2_5 (t : Fin cfg2.N) : (ms2_5 t).IsWhole := hstage2_5 ((cfg2.slots t 5).cast nbuf2_5)

/-- The class's invariant hands over the other regions' staging buffers, the scratch at some contents, and the
    generator register; -/
theorem PhiA2_out (c : Dev nD) :
    (Pipeline.ΦA spec2 c : sProp 𝕄)
      ⊢ iprop(iprop(others2 c ∗ (∃ d, owns (c : Thread nD τ) scM2 fullShare d)) ∗ (∃ r, prngReg c r)) := by
  rw [PhiA2_eq]; unfold others2
  iintro ⟨⟨A1, A2, A3, A4, A5, A6, A7, A8, A9, A10, A11, A12, HS⟩, Hg⟩
  isplitl [A1 A2 A3 A4 A5 A6 A7 A8 A9 A10 A11 A12 HS]
  · isplitl [A1 A2 A3 A4 A5 A6 A7 A8 A9 A10 A11 A12]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    iexact HS
  iexact Hg

/-- and takes them back. -/
theorem PhiA2_in (c : Dev nD) :
    iprop(iprop(others2 c ∗ (∃ d, owns (c : Thread nD τ) scM2 fullShare d)) ∗ (∃ r, prngReg c r))
      ⊢ (Pipeline.ΦA spec2 c : sProp 𝕄) := by
  rw [PhiA2_eq]; unfold others2
  iintro ⟨⟨⟨A1, A2, A3, A4, A5, A6, A7, A8, A9, A10, A11, A12⟩, HS⟩, Hg⟩
  isplitl [A1 A2 A3 A4 A5 A6 A7 A8 A9 A10 A11 A12 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact HS
  iexact Hg

/-! ## The accumulator after each point -/

/-- THE ACCUMULATION. What the scratch holds after the body at position n: at a point with K-step 0 the product of the
    point's two blocks added to the zero fill; at any other point added to what the point before left. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 4 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

/-- At a point whose K-step is 0 the accumulator restarts from the zero fill. -/
theorem acc2_zero (c : Dev nD) (n : ℕ) (hn : n < cfg2.N) (h : n % 4 = 0) :
    acc2 V c n hn = k2_pay2 (k2_pay1 (F := F)) (iblk2 V c 0 ⟨n, hn⟩) (iblk2 V c 1 ⟨n, hn⟩) := by
  cases n with
  | zero => rfl
  | succ n => exact if_pos h

/-- At any other point it adds the point's product to what the point before left. -/
theorem acc2_step (c : Dev nD) (n : ℕ) (hn : n < cfg2.N) (h : n % 4 ≠ 0) :
    acc2 V c n hn = k2_pay2 (acc2 V c (n - 1) (Nat.lt_of_le_of_lt (Nat.sub_le _ _) hn)) (iblk2 V c 0 ⟨n, hn⟩) (iblk2 V c 1 ⟨n, hn⟩) := by
  cases n with
  | zero => exact absurd (Nat.zero_mod _) h
  | succ n => exact if_neg h

/-- What the epilogue stores into the output window at point t (meaningful where the K-step is 3). -/
def out2 (c : Dev nD) (t : Fin cfg2.N) : Vec F S1024x1024 .f32 :=
  k2_pay3 (iblk2 V c 3 t) (iblk2 V c 4 t) (acc2 V c t.val t.isLt) (iblk2 V c 2 t)

/-! ## The invariant: the scratch carried between points -/

/-- Before the first point the class's invariant (the scratch at anything); afterwards the other regions' staging
    buffers at anything, the scratch at what the point before left in it, the generator register at some state. -/
def PhiS2 (c : Dev nD) : (n : ℕ) → n ≤ cfg2.N → sProp 𝕄
  | 0, _ => Pipeline.ΦA spec2 c
  | n + 1, hn => iprop(iprop(others2 c ∗ owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 c ∗ owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop(iprop(others2 c ∗ owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core c at the entry contents V: after the body each input's buffer at its block, the
    output's at what the epilogue stores; the carried-scratch invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the K-step (the point's position mod 4) selects the
    case: 0 — the scratch, at anything or at what the point before left, is zeroed and the product added, the output
    window handed back untouched; 1 and 2 — the product is added to what the point before left, the output window
    untouched; 3 — the same and the epilogue stores into the output window. The invariant hands the scratch over and takes
    it back at this point's accumulator; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  have hN : t.val < 128 := lt_of_lt_of_eq t.isLt (show cfg2.N = 128 from N_2)
  by_cases h3 : t.val % 4 = 3
  · have hc0 : ¬cond2_0 (grid2.coords t) := fun h => by have := (hcond2_0 t).mp h; omega
    have hc1 : cond2_1 (grid2.coords t) := (hcond2_1 t).mpr h3
    have hz : t.val ≠ 0 := by omega
    rw [show (dat2 V c).leavesExact 5 t = owns (c : Thread nD τ) (ms2_5 t) fullShare ((dat2 V c).after 5 t) from by
      unfold Dat.leavesExact; rw [liveAt2_5 t hc1], after2_5]
    unfold out2
    rw [acc2_step V c t.val t.isLt (by omega)]
    rw [PhiS2_castSucc V c t, PhiS2_pos V c _ _ hz]
    iintro ⟨⟨⟨Hoth, HS⟩, Hg⟩, Ho, ⟨%d0, H0⟩, ⟨%d1, H1⟩, ⟨%d2, H2⟩, ⟨%d3, H3⟩, ⟨%d4, H4⟩, ⟨%d5, H5⟩⟩
    iapply (run2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hoth HS Hg]
    · isplitl [Hoth HS]
      · isplitl [Hoth]; · iexact Hoth
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond2_1 (grid2.coords t) := fun h => h3 ((hcond2_1 t).mp h)
    rw [Dat.leavesExact_idle (dat2 V c) 5 t (idleAt2_5 t hc1) (noFlush2_5 t hc1)]
    by_cases h0 : t.val % 4 = 0
    · have hc0 : cond2_0 (grid2.coords t) := (hcond2_0 t).mpr h0
      rw [acc2_zero V c t.val t.isLt h0]
      have hΦ : (dat2 V c).Φ t.castSucc ⊢ iprop(iprop(others2 c ∗ (∃ d, owns (c : Thread nD τ) scM2 fullShare d)) ∗ (∃ r, prngReg c r)) := by
        rw [PhiS2_castSucc V c t]
        by_cases hz : t.val = 0
        · rw [PhiS2_zero V c _ _ hz]; exact PhiA2_out c
        · rw [PhiS2_pos V c _ _ hz]
          iintro ⟨⟨Hoth, HS⟩, Hg⟩
          isplitl [Hoth HS]
          · isplitl [Hoth]; · iexact Hoth
            iexists _; iexact HS
          iexact Hg
      refine BIBase.Entails.trans (Laws.sep_mono_left hΦ) ?_
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc0 : ¬cond2_0 (grid2.coords t) := fun h => h0 ((hcond2_0 t).mp h)
      have hz : t.val ≠ 0 := fun e => h0 (by rw [e])
      rw [acc2_step V c t.val t.isLt h0]
      rw [PhiS2_castSucc V c t, PhiS2_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) ((dat2 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitl [Hoth HS]
        · isplitl [Hoth]; · iexact Hoth
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_in c)
  iintro ⟨⟨Hoth, HS⟩, Hg⟩
  isplitl [Hoth HS]
  · isplitl [Hoth]; · iexact Hoth
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region2

end Cert.Kernel.Hand

end
-- ==== Proof.Bits.KernelFrame.lean ====
/-
  The kernel's frame: its program runs to the end, nothing faulting, and leaves its six arguments as launched.
  The run of the four items at the third launch's proof data (the accumulator carried between grid points),
  read at the six argument arrays; it holds for any reading of the float values.
-/
import proofs.«181425_j56727928045732_2_alg».proof.Proof.Bits.FrameRun
import proofs.«181425_j56727928045732_2_alg».proof.Proof.Bits.FrameR2

noncomputable section
namespace Cert.Kernel.Hand
open Cert.Kernel Cert.Kernel.Gen
open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_all (F := F) (fun V c => dat2 V c) m ρ (fun V c w => A_eq2 V c w) (fun _ _ _ => rfl) (fun _ _ _ => rfl) (fun _ _ _ => rfl)
    (fun V c => body_obligation2 V c) (fun V c => hin2 V c) (fun V c => hout2 V c)

end Cert.Kernel.Hand
end
-- ==== Proof.Spec.lean ====
/-
  The function both programs compute, on the extended reals.

  A row of 4096 numbers is cut into 64 consecutive groups of 64. A group's SCALE is the larger of
  (the largest absolute value in the group) / 7 and the constant the two programs share (the f32
  nearest to 1e-8); the running maximum starts from -∞, so on extended reals it is the plain maximum.
  The row's QUANTIZATION sends each entry `t` of a group with scale `s` to
  `clamp (roundHalfEven (t / s)) to [-8, 7] · s`.

  With `xs m k = x m k · smooth k` the result at `(m, n)` is
    `(∑ k, q(xs m) k · q(w n) k  +  ∑ r, (∑ k, xs m k · down k r) · up n r)  +  b n`:
  a product of the two quantized operands contracted over the 4096 columns, a rank-32 correction
  through the UNQUANTIZED `xs`, and a bias per output column. Every literal is kept as the extended
  real its f32 word denotes; nothing below evaluates one.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- The upper clamp and the divisor of a group's largest magnitude: the f32 word of 7. -/
def qmax : EReal := Ideal.ofBits .f32 0x40E00000#32
/-- The lower clamp: the f32 word of -8. -/
def qmin : EReal := Ideal.ofBits .f32 0xC1000000#32
/-- The floor of a scale: the f32 word nearest to 1e-8, the same word in both programs. -/
def tiny : EReal := Ideal.ofBits .f32 0x322BCC77#32
/-- Where a running maximum starts: the f32 word of -∞. -/
def negInf : EReal := Ideal.ofBits .f32 0xFF800000#32

/-- Column `j` of group `g` in a row of 64 groups of 64. -/
def gpos (g j : Fin 64) : Fin 4096 := ⟨g.val * 64 + j.val, by omega⟩
/-- The group a column lies in. -/
def grp (k : Fin 4096) : Fin 64 := ⟨k.val / 64, by omega⟩
/-- A column's place inside its group. -/
def gsub (k : Fin 4096) : Fin 64 := ⟨k.val % 64, by omega⟩

theorem gpos_grp_gsub (k : Fin 4096) : gpos (grp k) (gsub k) = k := by
  apply Fin.ext; simp only [gpos, grp, gsub]; omega

theorem grp_gpos (g j : Fin 64) : grp (gpos g j) = g := by
  apply Fin.ext; simp only [gpos, grp]; omega

theorem gsub_gpos (g j : Fin 64) : gsub (gpos g j) = j := by
  apply Fin.ext; simp only [gpos, gsub]; omega

/-- A group's largest magnitude, as the running maximum from -∞ of `max t (-t)`. -/
def gmax (row : Fin 4096 → EReal) (g : Fin 64) : EReal :=
  (Finset.univ : Finset (Fin 64)).fold max negInf (fun j => max (row (gpos g j)) (-(row (gpos g j))))

/-- A group's scale. -/
def gscale (row : Fin 4096 → EReal) (g : Fin 64) : EReal :=
  max (Ideal.div (gmax row g) qmax) tiny

/-- One entry quantized against a scale `s`. -/
def quant1 (t s : EReal) : EReal :=
  min qmax (max qmin (Ideal.liftRound Ideal.roundHalfEven (Ideal.div t s))) * s

/-- The row quantized, column by column. -/
def fq (row : Fin 4096 → EReal) (k : Fin 4096) : EReal :=
  quant1 (row k) (gscale row (grp k))

/-- The smoothed activation row `m`. -/
def xs (x : (⟨2, ![8192, 4096]⟩ : Shape).Idx → EReal) (s : (⟨1, ![4096]⟩ : Shape).Idx → EReal)
    (m : Fin 8192) : Fin 4096 → EReal := fun k => x (ix2 m k) * s (ix1 k)

/-- Row `n` of the weight. -/
def wrow (w : (⟨2, ![4096, 4096]⟩ : Shape).Idx → EReal) (n : Fin 4096) : Fin 4096 → EReal :=
  fun k => w (ix2 n k)

/-- The low-rank projection of row `m`: `∑ k, xs m k · down k r`. -/
def proj (x : (⟨2, ![8192, 4096]⟩ : Shape).Idx → EReal) (s : (⟨1, ![4096]⟩ : Shape).Idx → EReal)
    (down : (⟨2, ![4096, 32]⟩ : Shape).Idx → EReal) (m : Fin 8192) (r : Fin 32) : EReal :=
  ∑ k : Fin 4096, xs x s m k * down (ix2 k r)

/-- The quantized product at `(m, n)`. -/
def mainAt (x : (⟨2, ![8192, 4096]⟩ : Shape).Idx → EReal) (w : (⟨2, ![4096, 4096]⟩ : Shape).Idx → EReal)
    (s : (⟨1, ![4096]⟩ : Shape).Idx → EReal) (m : Fin 8192) (n : Fin 4096) : EReal :=
  ∑ k : Fin 4096, fq (xs x s m) k * fq (wrow w n) k

/-- The low-rank correction at `(m, n)`. -/
def loraAt (x : (⟨2, ![8192, 4096]⟩ : Shape).Idx → EReal) (s : (⟨1, ![4096]⟩ : Shape).Idx → EReal)
    (down up : (⟨2, ![4096, 32]⟩ : Shape).Idx → EReal) (m : Fin 8192) (n : Fin 4096) : EReal :=
  ∑ r : Fin 32, proj x s down m r * up (ix2 n r)

/-- THE RESULT, as one function of the six argument arrays. -/
def result (x : (⟨2, ![8192, 4096]⟩ : Shape).Idx → EReal) (w : (⟨2, ![4096, 4096]⟩ : Shape).Idx → EReal)
    (down up : (⟨2, ![4096, 32]⟩ : Shape).Idx → EReal) (s b : (⟨1, ![4096]⟩ : Shape).Idx → EReal) :
    (⟨2, ![8192, 4096]⟩ : Shape).Idx → EReal :=
  fun i => (mainAt x w s (i 0) (i 1) + loraAt x s down up (i 0) (i 1)) + b (ix1 (i 1))

end Cert.Quant

end
-- ==== Proof.Payloads.lean ====
/-
  The kernel's payloads read at an index, at the ideal instance.

  Each kernel body's arithmetic is one pure term of the body's loads. Here every such term is read at one
  index `(p, q)` of its result as a function of the loads' entries:
    • the smoothed tile is `x · smooth`, the one row of `smooth` read on every row;
    • the three matrix products are sums over the one contraction coordinate (the accumulator they start
      from is the zero splat), the format changes in front of them the identity on extended reals;
    • the group-wise quantization of a `[256, 4096]` tile — cut into 64 groups of 64 lanes, each group's
      largest magnitude taken as a running maximum from -∞, divided by 7 and floored, every entry divided by
      its group's scale, rounded half to even, clamped to [-8, 7] and multiplied back — is the
      specification's `Cert.Quant.fq` of the tile's row, column by column. Column `q` lies in group
      `q / 64` at lane `q % 64`; that is the only arithmetic, and it is row-major position arithmetic.
  Float literals stay the words the payloads print; the only one evaluated is the zero word.
-/
import proofs.«181425_j56727928045732_2_alg».proof.Proof.Gen.KernelIdeal.Skeleton
import proofs.«181425_j56727928045732_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The smoothed tile -/

/-- The smoothed tile at `(p, q)`: the activation entry times the smoothing factor of column `q`. -/
theorem pay1_apply (v0 : Vec Ideal S256x4096 .f32) (v1 : Vec Ideal S1x4096 .f32) (p : Fin 256) (q : Fin 4096) :
    k0_pay1 (F := Ideal) v0 v1 (ix2 p q) = v0 (ix2 p q) * v1 (ix2 (0 : Fin 1) q) := by
  unfold k0_pay1
  refine (mulf_apply _ _ _).trans ?_
  refine congrArg (v0 (ix2 p q) * ·) ?_
  refine (broadcastTo_1b_ab_apply _ _ p q).trans ?_
  rw [shapeCast_self]

/-! ## The three matrix products

A product's operand indices at output index `i` and contraction index `k`: the non-contracting coordinate is `i`'s,
the contracting one is `k`'s one coordinate. -/

/-- The projection's dimension numbers (rows × contraction times contraction × columns): the left operand is read at the output row and the contraction coordinate … -/
theorem dproj_lhs0 (i : S256x32.Idx) (q : dot_S256x4096_S4096x32_S256x32_1_0_0_1_n_n.contr.Idx) : (dot_S256x4096_S4096x32_S256x32_1_0_0_1_n_n.lhsIdx i q 0).val = (i 0).val := by
  unfold DotDims.lhsIdx
  rw [dif_neg (show ¬(0 : Fin S256x4096.rank) ∈ dot_S256x4096_S4096x32_S256x32_1_0_0_1_n_n.lhsBatch by decide), dif_pos (show (0 : Fin S256x4096.rank) ∈ dot_S256x4096_S4096x32_S256x32_1_0_0_1_n_n.lhsNonContracting by decide)]
  rfl
theorem dproj_lhs1 (i : S256x32.Idx) (q : dot_S256x4096_S4096x32_S256x32_1_0_0_1_n_n.contr.Idx) : (dot_S256x4096_S4096x32_S256x32_1_0_0_1_n_n.lhsIdx i q 1).val = (q ⟨0, by decide⟩).val :=
  dot_S256x4096_S4096x32_S256x32_1_0_0_1_n_n.lhsIdx_val_of_single rfl i q
/-- … and the right operand at the contraction coordinate on its axis 0 and the output column on its axis 1. -/
theorem dproj_rhs0 (i : S256x32.Idx) (q : dot_S256x4096_S4096x32_S256x32_1_0_0_1_n_n.contr.Idx) : (dot_S256x4096_S4096x32_S256x32_1_0_0_1_n_n.rhsIdx i q 0).val = (q ⟨0, by decide⟩).val :=
  dot_S256x4096_S4096x32_S256x32_1_0_0_1_n_n.rhsIdx_val_of_single rfl i q
theorem dproj_rhs1 (i : S256x32.Idx) (q : dot_S256x4096_S4096x32_S256x32_1_0_0_1_n_n.contr.Idx) : (dot_S256x4096_S4096x32_S256x32_1_0_0_1_n_n.rhsIdx i q 1).val = (i 1).val := by
  unfold DotDims.rhsIdx
  rw [dif_neg (show ¬(1 : Fin S4096x32.rank) ∈ dot_S256x4096_S4096x32_S256x32_1_0_0_1_n_n.rhsBatch by decide), dif_pos (show (1 : Fin S4096x32.rank) ∈ dot_S256x4096_S4096x32_S256x32_1_0_0_1_n_n.rhsNonContracting by decide)]
  rfl

/-- The K-tile product's dimension numbers (both operands contracted on their columns): the left operand is read at the output row and the contraction coordinate … -/
theorem dacc_lhs0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem dacc_lhs1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- … and the right operand at the contraction coordinate on its axis 1 and the output column on its axis 0. -/
theorem dacc_rhs1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q
theorem dacc_rhs0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The low-rank correction's dimension numbers (both operands contracted on their columns): the left operand is read at the output row and the contraction coordinate … -/
theorem dlow_lhs0 (i : S1024x1024.Idx) (q : dot_S1024x32_S1024x32_S1024x1024_1_1_0_0_n_n.contr.Idx) : (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
theorem dlow_lhs1 (i : S1024x1024.Idx) (q : dot_S1024x32_S1024x32_S1024x1024_1_1_0_0_n_n.contr.Idx) : (dot_S1024x32_S1024x32_S1024x1024_1_1_0_0_n_n.lhsIdx i q 1).val = (q ⟨0, by decide⟩).val :=
  dot_S1024x32_S1024x32_S1024x1024_1_1_0_0_n_n.lhsIdx_val_of_single rfl i q
/-- … and the right operand at the contraction coordinate on its axis 1 and the output column on its axis 0. -/
theorem dlow_rhs1 (i : S1024x1024.Idx) (q : dot_S1024x32_S1024x32_S1024x1024_1_1_0_0_n_n.contr.Idx) : (dot_S1024x32_S1024x32_S1024x1024_1_1_0_0_n_n.rhsIdx i q 1).val = (q ⟨0, by decide⟩).val :=
  dot_S1024x32_S1024x32_S1024x1024_1_1_0_0_n_n.rhsIdx_val_of_single rfl i q
theorem dlow_rhs0 (i : S1024x1024.Idx) (q : dot_S1024x32_S1024x32_S1024x1024_1_1_0_0_n_n.contr.Idx) : (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl

/-- The projection at `(p, r)`: the smoothed row `p` against column `r` of the down matrix. -/
theorem proj_apply (v0 : Vec Ideal S256x4096 .f32) (v1 : Vec Ideal S1x4096 .f32) (v6 : Vec Ideal S4096x32 .bf16) (p : Fin 256) (r : Fin 32) :
    k0_pay2 (F := Ideal) v0 v1 v6 (ix2 p r) = ∑ k : Fin 4096, (v0 (ix2 p k) * v1 (ix2 (0 : Fin 1) k)) * v6 (ix2 k r) := by
  unfold k0_pay2
  refine (Ideal.matmul_constant_zero_apply dot_S256x4096_S4096x32_S256x32_1_0_0_1_n_n none _ _ (ix2 p r)).trans ?_
  rw [← Equiv.sum_comp (contrEquiv1 dot_S256x4096_S4096x32_S256x32_1_0_0_1_n_n 4096 rfl rfl).symm]
  refine Finset.sum_congr rfl fun k _ => ?_
  have hk := contrEquiv1_symm_val dot_S256x4096_S4096x32_S256x32_1_0_0_1_n_n 4096 rfl rfl k
  have el : dot_S256x4096_S4096x32_S256x32_1_0_0_1_n_n.lhsIdx (ix2 p r) ((contrEquiv1 dot_S256x4096_S4096x32_S256x32_1_0_0_1_n_n 4096 rfl rfl).symm k) = ix2 p k := funext fun a => Fin.ext (by
    match a with
    | ⟨0, _⟩ => exact dproj_lhs0 _ _
    | ⟨1, _⟩ => exact (dproj_lhs1 _ _).trans hk)
  have er : dot_S256x4096_S4096x32_S256x32_1_0_0_1_n_n.rhsIdx (ix2 p r) ((contrEquiv1 dot_S256x4096_S4096x32_S256x32_1_0_0_1_n_n 4096 rfl rfl).symm k) = ix2 k r := funext fun a => Fin.ext (by
    match a with
    | ⟨0, _⟩ => exact (dproj_rhs0 _ _).trans hk
    | ⟨1, _⟩ => exact dproj_rhs1 _ _)
  rw [el, er, shapeCast_self]
  exact congrArg (· * v6 (ix2 k r)) (pay1_apply v0 v1 p k)

/-- The accumulator's start: the zero splat. -/
theorem zero_apply (p q : Fin 1024) : k2_pay1 (F := Ideal) (ix2 p q) = 0 := by
  unfold k2_pay1
  rw [shapeCast_self]
  exact Ideal.ofBits_zero_f32

/-- One K-tile's step at `(p, q)`: the accumulator plus row `p` of the quantized activations against row `q` of the
    quantized weights. -/
theorem acc_apply (v3 : Vec Ideal S1024x1024 .f32) (v4 v6 : Vec Ideal S1024x1024 .bf16) (p q : Fin 1024) :
    k2_pay2 (F := Ideal) v3 v4 v6 (ix2 p q) = v3 (ix2 p q) + ∑ k : Fin 1024, v4 (ix2 p k) * v6 (ix2 q k) := by
  unfold k2_pay2
  rw [shapeCast_self]
  refine (addf_apply _ _ _).trans ?_
  refine congrArg (v3 (ix2 p q) + ·) ?_
  refine (Ideal.matmul_constant_zero_apply dot_S1024x1024_S1024x1024_S1024x1024_1_1_0_0_n_n none _ _ (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact dacc_lhs0 _ _
    | ⟨1, _⟩ => exact (dacc_lhs1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact dacc_rhs0 _ _
    | ⟨1, _⟩ => exact (dacc_rhs1 _ _).trans hk)
  rw [el, er, shapeCast_self, shapeCast_self]

/-- The epilogue at `(p, q)`: the accumulator plus the projection's row `p` against row `q` of the up matrix, plus the
    bias of column `q`. -/
theorem out_apply (v16 : Vec Ideal S1024x32 .f32) (v19 : Vec Ideal S1024x32 .bf16) (v22 : Vec Ideal S1024x1024 .f32) (v24 : Vec Ideal S1x1024 .f32) (p q : Fin 1024) :
    k2_pay3 (F := Ideal) v16 v19 v22 v24 (ix2 p q) = (v22 (ix2 p q) + ∑ r : Fin 32, v16 (ix2 p r) * v19 (ix2 q r)) + v24 (ix2 (0 : Fin 1) q) := by
  unfold k2_pay3
  refine (addf_apply _ _ _).trans ?_
  refine congrArg₂ (· + ·) ?_ ?_
  · refine (addf_apply _ _ _).trans ?_
    refine congrArg (v22 (ix2 p q) + ·) ?_
    refine (Ideal.matmul_constant_zero_apply dot_S1024x32_S1024x32_S1024x1024_1_1_0_0_n_n none _ _ (ix2 p q)).trans ?_
    rw [← Equiv.sum_comp (contrEquiv1 dot_S1024x32_S1024x32_S1024x1024_1_1_0_0_n_n 32 rfl rfl).symm]
    refine Finset.sum_congr rfl fun k _ => ?_
    have hk := contrEquiv1_symm_val dot_S1024x32_S1024x32_S1024x1024_1_1_0_0_n_n 32 rfl rfl k
    have el : dot_S1024x32_S1024x32_S1024x1024_1_1_0_0_n_n.lhsIdx (ix2 p q) ((contrEquiv1 dot_S1024x32_S1024x32_S1024x1024_1_1_0_0_n_n 32 rfl rfl).symm k) = ix2 p k := funext fun a => Fin.ext (by
      match a with
      | ⟨0, _⟩ => exact dlow_lhs0 _ _
      | ⟨1, _⟩ => exact (dlow_lhs1 _ _).trans hk)
    have er : dot_S1024x32_S1024x32_S1024x1024_1_1_0_0_n_n.rhsIdx (ix2 p q) ((contrEquiv1 dot_S1024x32_S1024x32_S1024x1024_1_1_0_0_n_n 32 rfl rfl).symm k) = ix2 q k := funext fun a => Fin.ext (by
      match a with
      | ⟨0, _⟩ => exact dlow_rhs0 _ _
      | ⟨1, _⟩ => exact (dlow_rhs1 _ _).trans hk)
    rw [el, er, shapeCast_self, shapeCast_self]
    rfl
  · refine (broadcastTo_1b_ab_apply _ _ p q).trans ?_
    rw [shapeCast_self]

/-! ## The layout operations of the group-wise quantization, read at an index -/

section Layout
variable {α : Type}

/-- A `[256, 4096]` tile cut into 64 groups of 64 lanes reads, at `(p, g, j)`, the tile at column `g·64 + j` of row `p`. -/
theorem castGroups_apply (x : (⟨2, ![256, 4096]⟩ : Shape).Idx → α) (h : (⟨2, ![256, 4096]⟩ : Shape).ShapeCasts ⟨3, ![256, 64, 64]⟩)
    (p : Fin 256) (g j : Fin 64) : shapeCast ⟨3, ![256, 64, 64]⟩ x h (ix3 p g j) = x (ix2 p (Cert.Quant.gpos g j)) :=
  shapeCast_apply x h _ _ (by
    rw [Shape.rowMajor_val_two, Shape.rowMajor_val_three]
    show p.val * 4096 + (g.val * 64 + j.val) = (p.val * 64 + g.val) * 64 + j.val
    omega)

/-- The groups laid back as one row read, at `(p, q)`, the entry of group `q / 64` at lane `q % 64`. -/
theorem castRow_apply (y : (⟨3, ![256, 64, 64]⟩ : Shape).Idx → α) (h : (⟨3, ![256, 64, 64]⟩ : Shape).ShapeCasts ⟨2, ![256, 4096]⟩)
    (p : Fin 256) (q : Fin 4096) : shapeCast ⟨2, ![256, 4096]⟩ y h (ix2 p q) = y (ix3 p (Cert.Quant.grp q) (Cert.Quant.gsub q)) :=
  shapeCast_apply y h _ _ (by
    rw [Shape.rowMajor_val_three, Shape.rowMajor_val_two]
    show (p.val * 64 + q.val / 64) * 64 + q.val % 64 = p.val * 4096 + q.val
    omega)

/-- A `[256, 64]` array given a trailing unit axis reads, at `(p, g, z)`, the array at `(p, g)`. -/
theorem castColumn_apply (u : (⟨2, ![256, 64]⟩ : Shape).Idx → α) (h : (⟨2, ![256, 64]⟩ : Shape).ShapeCasts ⟨3, ![256, 64, 1]⟩)
    (p : Fin 256) (g : Fin 64) (z : Fin 1) : shapeCast ⟨3, ![256, 64, 1]⟩ u h (ix3 p g z) = u (ix2 p g) :=
  shapeCast_apply u h _ _ (by
    have hz : z.val = 0 := by omega
    rw [Shape.rowMajor_val_two, Shape.rowMajor_val_three]
    show p.val * 64 + g.val = (p.val * 64 + g.val) * 1 + z.val
    omega)

/-- A `[256, 64, 1]` column broadcast along 64 lanes reads, at `(p, g, j)`, the column at `(p, g, 0)`. -/
theorem broadcastLanes_apply (w : (⟨3, ![256, 64, 1]⟩ : Shape).Idx → α) (h : (⟨3, ![256, 64, 1]⟩ : Shape).Broadcasts ⟨3, ![256, 64, 64]⟩)
    (p : Fin 256) (g j : Fin 64) : broadcastTo ⟨3, ![256, 64, 64]⟩ w h (ix3 p g j) = w (ix3 p g (0 : Fin 1)) := by
  refine broadcastTo_apply w h (ix3 p g j) (ix3 p g (0 : Fin 1)) fun ax => ?_
  match ax with
  | ⟨0, _⟩ => show p.val = if (256 : Nat) = 1 then 0 else p.val; rw [if_neg (by decide)]
  | ⟨1, _⟩ => show g.val = if (64 : Nat) = 1 then 0 else g.val; rw [if_neg (by decide)]
  | ⟨2, _⟩ => show 0 = if (1 : Nat) = 1 then 0 else j.val; rw [if_pos rfl]

end Layout

/-- The maximum over the 64 lanes of a group, read at `(p, g)`: the running maximum from -∞ over the lanes. -/
theorem laneMax_apply (src : FVec Ideal S256x64x64 .f32) (h : S256x64x64.Reduces [2] S256x64) (hφ : FKind.Formats .f32)
    (hacc : (0xFF800000#32 : BitVec (FTy.bits .f32)) = FKind.maximumf.neutral .f32 hφ) (p : Fin 256) (g : Fin 64) :
    multiReduction .maximumf [2] S256x64 src 0xFF800000#32 h hφ hacc (ix2 p g)
      = (Finset.univ : Finset (Fin 64)).fold max Cert.Quant.negInf (fun j => src (ix3 p g j)) := by
  refine (Ideal.multiReduction_maximumf_single src 0xFF800000#32 h hφ hacc (ix2 p g)).trans ?_
  have e : (src ∘ h.lift (ix2 p g) : Fin 64 → EReal) = fun j => src (ix3 p g j) := funext fun j =>
    congrArg src (funext fun a => Fin.ext (by
      match a with
      | ⟨0, _⟩ => rfl
      | ⟨1, _⟩ => rfl
      | ⟨2, _⟩ => rfl))
  exact congrArg (Finset.fold max Cert.Quant.negInf · (Finset.univ : Finset (Fin 64))) e

/-! ## The group-wise quantization of a tile, stage by stage -/

section Quantize
variable (x : FVec Ideal S256x4096 .f32)

/-- The tile cut into 64 groups of 64 lanes. -/
def tileCut : FVec Ideal S256x64x64 .f32 := shapeCast S256x64x64 x shapeCasts_S256x4096_S256x64x64

/-- Each group's scale, as a `[256, 64, 1]` column: the larger of (the group's largest magnitude) / 7 and the floor. -/
def tileScale : FVec Ideal S256x64x1 .f32 :=
  maximumf
    (divf
      (shapeCast S256x64x1
        (multiReduction .maximumf [2] S256x64 (absf (tileCut x)) 0xFF800000#32 reduces_S256x64x64_S256x64 (.inl rfl) rfl)
        shapeCasts_S256x64_S256x64x1)
      (broadcast S256x64x1 (Scalar.ofBits .f32 0x40E00000#32)))
    (broadcast S256x64x1 (Scalar.ofBits .f32 0x322BCC77#32))

/-- The quantized groups: each entry divided by its group's scale, rounded, clamped to [-8, 7], times the scale. -/
def tileQuant : FVec Ideal S256x64x64 .f32 :=
  mulf
    (minimumf (broadcast S256x64x64 (Scalar.ofBits .f32 0x40E00000#32))
      (maximumf (broadcast S256x64x64 (Scalar.ofBits .f32 0xC1000000#32))
        (roundeven (divf (tileCut x) (broadcastTo S256x64x64 (tileScale x) broadcasts_S256x64x1_S256x64x64)))))
    (broadcastTo S256x64x64 (tileScale x) broadcasts_S256x64x1_S256x64x64)

/-- The weight kernel's payload is these stages composed. -/
theorem k1_pay1_eq : k1_pay1 (F := Ideal) x
    = truncf .bf16 (shapeCast S256x4096 (tileQuant x) shapeCasts_S256x64x64_S256x4096) bitsLt_bf16_f32 := rfl

/-- The cut tile at `(p, g, j)` is the tile at column `g·64 + j` of row `p`. -/
theorem tileCut_apply (p : Fin 256) (g j : Fin 64) : tileCut x (ix3 p g j) = x (ix2 p (Cert.Quant.gpos g j)) :=
  castGroups_apply x _ p g j

/-- A group's scale column holds the specification's scale of the tile's row. -/
theorem tileScale_apply (p : Fin 256) (g : Fin 64) (z : Fin 1) :
    tileScale x (ix3 p g z) = Cert.Quant.gscale (fun k => x (ix2 p k)) g := by
  unfold tileScale
  refine (maximumf_apply _ _ _).trans ?_
  refine congrArg (max · Cert.Quant.tiny) ?_
  refine (divf_apply _ _ _).trans ?_
  refine congrArg (Ideal.div · Cert.Quant.qmax) ?_
  refine (castColumn_apply _ _ p g z).trans ?_
  refine (laneMax_apply _ _ _ _ p g).trans ?_
  refine congrArg (Finset.fold max Cert.Quant.negInf · (Finset.univ : Finset (Fin 64))) (funext fun j => ?_)
  show max (tileCut x (ix3 p g j)) (-(tileCut x (ix3 p g j))) = _
  rw [tileCut_apply]

/-- The quantized groups hold the specification's quantization of the tile's row. -/
theorem tileQuant_apply (p : Fin 256) (g j : Fin 64) :
    tileQuant x (ix3 p g j) = Cert.Quant.quant1 (x (ix2 p (Cert.Quant.gpos g j))) (Cert.Quant.gscale (fun k => x (ix2 p k)) g) := by
  have hs : broadcastTo S256x64x64 (tileScale x) broadcasts_S256x64x1_S256x64x64 (ix3 p g j)
      = Cert.Quant.gscale (fun k => x (ix2 p k)) g :=
    (broadcastLanes_apply _ _ p g j).trans (tileScale_apply x p g 0)
  unfold tileQuant
  refine (mulf_apply _ _ _).trans ?_
  rw [hs]
  refine congrArg (· * Cert.Quant.gscale (fun k => x (ix2 p k)) g) ?_
  refine (minimumf_apply _ _ _).trans ?_
  refine congrArg (min Cert.Quant.qmax ·) ?_
  refine (maximumf_apply _ _ _).trans ?_
  refine congrArg (max Cert.Quant.qmin ·) ?_
  show Ideal.liftRound Ideal.roundHalfEven (Ideal.div (tileCut x (ix3 p g j)) (broadcastTo S256x64x64 (tileScale x) broadcasts_S256x64x1_S256x64x64 (ix3 p g j))) = _
  rw [hs, tileCut_apply]

/-- THE QUANTIZATION PAYLOAD AT AN INDEX: entry `(p, q)` is the specification's quantization of row `p` at column `q`. -/
theorem quantize_apply (p : Fin 256) (q : Fin 4096) :
    k1_pay1 (F := Ideal) x (ix2 p q) = Cert.Quant.fq (fun k => x (ix2 p k)) q := by
  rw [k1_pay1_eq]
  refine (truncf_apply (ψ := .bf16) (shapeCast S256x4096 (tileQuant x) shapeCasts_S256x64x64_S256x4096) bitsLt_bf16_f32 (ix2 p q)).trans ?_
  refine (castRow_apply _ _ p q).trans ?_
  rw [tileQuant_apply, Cert.Quant.gpos_grp_gsub]
  rfl

end Quantize

/-- The quantized weight tile at `(p, q)`. -/
theorem wq_apply (v0 : Vec Ideal S256x4096 .f32) (p : Fin 256) (q : Fin 4096) :
    k1_pay1 (F := Ideal) v0 (ix2 p q) = Cert.Quant.fq (fun k => v0 (ix2 p k)) q :=
  quantize_apply v0 p q

/-- The quantized activation tile at `(p, q)`: the same stages applied to the smoothed tile. -/
theorem xq_apply (v0 : Vec Ideal S256x4096 .f32) (v1 : Vec Ideal S1x4096 .f32) (p : Fin 256) (q : Fin 4096) :
    k0_pay3 (F := Ideal) v0 v1 (ix2 p q) = Cert.Quant.fq (fun k => v0 (ix2 p k) * v1 (ix2 (0 : Fin 1) k)) q := by
  have e : k0_pay3 (F := Ideal) v0 v1 = k1_pay1 (F := Ideal) (k0_pay1 (F := Ideal) v0 v1) := rfl
  rw [e, quantize_apply]
  exact congrArg (Cert.Quant.fq · q) (funext fun k => pay1_apply v0 v1 p k)

end Cert.KernelIdeal.Pay

end
-- ==== Proof.ValR0.lean ====
/-
  What the first launch leaves: the quantized smoothed activation and the smoothed activation's
  low-rank projection, each as one function of the arrays the launch reads.

  Point `t` of the 32 reads rows `256·t … 256·t+255` of the activation, the one row of smoothing
  factors and the whole down-projection (the same block at every point), and writes the same rows of
  the two results. Row `256·t + p` of a block it writes looks only at row `p` of the activation block —
  row `256·t + p` of the activation — at the smoothing row and, for the projection, at the
  down-projection. So each block written is the same rows of ONE whole-array function: `XQ`, whose
  entry `(m, k)` is column `k` of the quantization of the smoothed row `m`, and `PJ`, whose entry
  `(m, r)` is the smoothed row `m` against column `r` of the down-projection. The 32 blocks tile each
  array (row `m` lies in block `m / 256`), so the arrays end equal to `XQ` and `PJ` of the inputs.
-/
import proofs.«181425_j56727928045732_2_alg».proof.Proof.FrameR0
import proofs.«181425_j56727928045732_2_alg».proof.Proof.Payloads
import proofs.«181425_j56727928045732_2_alg».proof.Proof.Spec
import Idealize.ShloMosaic.Lib.Pipeline.Value
import Idealize.ShloMosaic.Lib.ValueIdx

set_option maxRecDepth 16384
noncomputable section
namespace Cert.KernelIdeal.Val0
open Cert.KernelIdeal Cert.KernelIdeal.Gen Cert.KernelIdeal.Hand Cert.Quant
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offset of a whole-buffer rectangle. -/
theorem hz2 : (![0, 0] : Fin 2 → Nat) = fun _ => 0 := funext fun a => by fin_cases a <;> rfl

/-- The quantized smoothed activation: entry `(m, k)` is column `k` of the quantization of row `m` times the smoothing row. -/
def XQ (x : S8192x4096.Idx → EReal) (s2 : S1x4096.Idx → EReal) : S8192x4096.Idx → EReal := fun i => Cert.Quant.fq (fun k => x (ix2 (i 0) k) * s2 (ix2 (0 : Fin 1) k)) (i 1)

/-- The projection: entry `(m, r)` is the smoothed row `m` against column `r` of the down-projection. -/
def PJ (x : S8192x4096.Idx → EReal) (s2 : S1x4096.Idx → EReal) (d : S4096x32.Idx → EReal) : S8192x32.Idx → EReal := fun i => ∑ k : Fin 4096, (x (ix2 (i 0) k) * s2 (ix2 (0 : Fin 1) k)) * d (ix2 k (i 1))

/-- Row `m` of the activation times the smoothing row: the row both results are functions of. -/
def srow (x : S8192x4096.Idx → EReal) (s2 : S1x4096.Idx → EReal) (m : Fin 8192) : Fin 4096 → EReal :=
  fun k => x (ix2 m k) * s2 (ix2 (0 : Fin 1) k)

/-- The smoothed row `m` against column `r` of the down-projection. -/
def prow (x : S8192x4096.Idx → EReal) (s2 : S1x4096.Idx → EReal) (d : S4096x32.Idx → EReal) (m : Fin 8192) (r : Fin 32) : EReal :=
  ∑ k : Fin 4096, srow x s2 m k * d (ix2 k r)

theorem XQ_apply (x : S8192x4096.Idx → EReal) (s2 : S1x4096.Idx → EReal) (m : Fin 8192) (k : Fin 4096) :
    XQ x s2 (ix2 m k) = Cert.Quant.fq (srow x s2 m) k := rfl
theorem PJ_apply (x : S8192x4096.Idx → EReal) (s2 : S1x4096.Idx → EReal) (d : S4096x32.Idx → EReal) (m : Fin 8192) (r : Fin 32) :
    PJ x s2 d (ix2 m r) = prow x s2 d m r := rfl

/-- The activation's and the two results' block index at point `t` is `(t, 0)`; the smoothing row's and the
    down-projection's is `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt0 (t : Fin cfg0.N) : t.val < 32 := lt_of_lt_of_eq t.isLt N_0

/-- An element of point `t`'s block of the activation sits at row `256·t + its row`, same column; -/
theorem emb0_0 (t : Fin cfg0.N) (p : Fin 256) (k : Fin 4096) :
    ((cfg0.win 0).blk t).view.emb (ix2 p k) = ix2 (⟨t.val * 256 + p.val, by have := t_lt0 t; omega⟩ : Fin 8192) k := by
  obtain ⟨e0, e1, -⟩ := idx0 t
  funext a; apply Fin.ext
  match a with
  | ⟨0, _⟩ => show win0_0.index t (0 : Fin 2) * 256 + 1 * p.val = t.val * 256 + p.val; omega
  | ⟨1, _⟩ => show win0_0.index t (1 : Fin 2) * 4096 + 1 * k.val = k.val; omega
/-- the smoothing row's one block is the whole row; -/
theorem emb0_1 (t : Fin cfg0.N) (z : Fin 1) (k : Fin 4096) :
    ((cfg0.win 1).blk t).view.emb (ix2 z k) = ix2 (0 : Fin 1) k := by
  obtain ⟨-, -, e0, e1, -⟩ := idx0 t
  have hz : z.val = 0 := by omega
  funext a; apply Fin.ext
  match a with
  | ⟨0, _⟩ => show win0_1.index t (0 : Fin 2) * 1 + 1 * z.val = 0; omega
  | ⟨1, _⟩ => show win0_1.index t (1 : Fin 2) * 4096 + 1 * k.val = k.val; omega
/-- the down-projection's one block is the whole matrix; -/
theorem emb0_2 (t : Fin cfg0.N) (k : Fin 4096) (r : Fin 32) :
    ((cfg0.win 2).blk t).view.emb (ix2 k r) = ix2 k r := by
  obtain ⟨-, -, -, -, e0, e1, -⟩ := idx0 t
  funext a; apply Fin.ext
  match a with
  | ⟨0, _⟩ => show win0_2.index t (0 : Fin 2) * 4096 + 1 * k.val = k.val; omega
  | ⟨1, _⟩ => show win0_2.index t (1 : Fin 2) * 32 + 1 * r.val = r.val; omega
/-- and an element of point `t`'s block of either result sits at row `256·t + its row`, same column. -/
theorem emb0_3 (t : Fin cfg0.N) (p : Fin 256) (k : Fin 4096) :
    ((cfg0.win 3).blk t).view.emb (ix2 p k) = ix2 (⟨t.val * 256 + p.val, by have := t_lt0 t; omega⟩ : Fin 8192) k := by
  obtain ⟨-, -, -, -, -, -, e0, e1, -⟩ := idx0 t
  funext a; apply Fin.ext
  match a with
  | ⟨0, _⟩ => show win0_3.index t (0 : Fin 2) * 256 + 1 * p.val = t.val * 256 + p.val; omega
  | ⟨1, _⟩ => show win0_3.index t (1 : Fin 2) * 4096 + 1 * k.val = k.val; omega
theorem emb0_4 (t : Fin cfg0.N) (p : Fin 256) (r : Fin 32) :
    ((cfg0.win 4).blk t).view.emb (ix2 p r) = ix2 (⟨t.val * 256 + p.val, by have := t_lt0 t; omega⟩ : Fin 8192) r := by
  obtain ⟨-, -, -, -, -, -, -, -, e0, e1⟩ := idx0 t
  funext a; apply Fin.ext
  match a with
  | ⟨0, _⟩ => show win0_4.index t (0 : Fin 2) * 256 + 1 * p.val = t.val * 256 + p.val; omega
  | ⟨1, _⟩ => show win0_4.index t (1 : Fin 2) * 32 + 1 * r.val = r.val; omega

/-- The three input blocks at point `t`, entry by entry, off the arrays as the launch finds them. -/
theorem blk0_x (c : Dev nD) (t : Fin cfg0.N) (p : Fin 256) (k : Fin 4096) :
    iblk0 V c 0 t (ix2 p k) = V c main_arg0 (ix2 (⟨t.val * 256 + p.val, by have := t_lt0 t; omega⟩ : Fin 8192) k) := by
  unfold iblk0
  rw [View.read_apply, emb0_0]
  rfl
theorem blk0_s (c : Dev nD) (t : Fin cfg0.N) (z : Fin 1) (k : Fin 4096) :
    iblk0 V c 1 t (ix2 z k) = V c main_v0 (ix2 (0 : Fin 1) k) := by
  unfold iblk0
  rw [View.read_apply, emb0_1]
  rfl
theorem blk0_d (c : Dev nD) (t : Fin cfg0.N) (k : Fin 4096) (r : Fin 32) :
    iblk0 V c 2 t (ix2 k r) = V c main_v2 (ix2 k r) := by
  unfold iblk0
  rw [View.read_apply, emb0_2]
  rfl

/-- What point `t` writes back to the quantized result is block `t` of `XQ` of the activation and the smoothing row. -/
theorem xq_flushed (c : Dev nD) (t : Fin cfg0.N) :
    (dat0 V c).flushed 3 t = ((cfg0.win 3).blk t).view.read (Elt Ideal) (XQ (V c main_arg0) (V c main_v0)) := by
  show (cfg0.win 3).cut (grid0.coords t) ((dat0 V c).after 3 t) = _
  rw [after0_3]; unfold out0_3
  rw [View.canon_unit_zero hz2]
  simp only [View.ld_unit_zero (S := S256x4096) hz2]
  simp only [View.ld_unit_zero (S := S1x4096) hz2]
  funext j
  obtain ⟨p, q, rfl⟩ : ∃ (p : Fin 256) (q : Fin 4096), j = ix2 p q := ⟨j 0, j 1, eq_ix2 j⟩
  refine (Cert.KernelIdeal.Pay.xq_apply _ _ p q).trans ?_
  rw [View.read_apply]
  show _ = XQ (V c main_arg0) (V c main_v0) (((cfg0.win 3).blk t).view.emb (ix2 p q))
  rw [emb0_3]
  rw [XQ_apply]
  refine congrArg (fun r => fq r q) (funext fun k => ?_)
  rw [blk0_x, blk0_s]
  rfl

/-- What point `t` writes back to the projection is block `t` of `PJ` of the activation, the smoothing row and the
    down-projection. -/
theorem pj_flushed (c : Dev nD) (t : Fin cfg0.N) :
    (dat0 V c).flushed 4 t = ((cfg0.win 4).blk t).view.read (Elt Ideal) (PJ (V c main_arg0) (V c main_v0) (V c main_v2)) := by
  show (cfg0.win 4).cut (grid0.coords t) ((dat0 V c).after 4 t) = _
  rw [after0_4]; unfold out0_4
  rw [View.canon_unit_zero hz2]
  simp only [View.ld_unit_zero (S := S256x4096) hz2]
  simp only [View.ld_unit_zero (S := S1x4096) hz2]
  simp only [View.ld_unit_zero (S := S4096x32) hz2]
  funext j
  obtain ⟨p, r, rfl⟩ : ∃ (p : Fin 256) (r : Fin 32), j = ix2 p r := ⟨j 0, j 1, eq_ix2 j⟩
  refine (Cert.KernelIdeal.Pay.proj_apply _ _ _ p r).trans ?_
  rw [View.read_apply]
  show _ = PJ (V c main_arg0) (V c main_v0) (V c main_v2) (((cfg0.win 4).blk t).view.emb (ix2 p r))
  rw [emb0_4]
  rw [PJ_apply]
  refine Finset.sum_congr rfl fun k _ => ?_
  rw [blk0_x, blk0_s, blk0_d]
  rfl

theorem xq_mem_blk (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v4_0).slice (win0_3.rect t)).set ↔ _
  rw [View.set_slice_whole, Rect.mem_set_unit]
  exact Iff.rfl
theorem pj_mem_blk (t : Fin cfg0.N) (i : S8192x32.Idx) :
    i ∈ ((cfg0.win 4).blk t).view.set ↔ ∀ a : Fin 2, win0_4.index t a * S256x32.size a ≤ (i a).val ∧ (i a).val < win0_4.index t a * S256x32.size a + S256x32.size a := by
  show i ∈ ((View.whole main_v4_1).slice (win0_4.rect t)).set ↔ _
  rw [View.set_slice_whole, Rect.mem_set_unit]
  exact Iff.rfl

/-- Every entry of either result lies in the block of the point `row / 256`. -/
theorem xq_cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : (i 0).val / 256 < cfg0.N := lt_of_lt_of_eq (by omega : (i 0).val / 256 < 32) N_0.symm
  refine ⟨⟨(i 0).val / 256, hN⟩, flush0_3 _, ?_⟩
  rw [xq_mem_blk]
  obtain ⟨-, -, -, -, -, -, e0, e1, -⟩ := idx0 ⟨(i 0).val / 256, hN⟩
  intro a
  match a with
  | ⟨0, _⟩ => show win0_3.index _ (0 : Fin 2) * 256 ≤ (i 0).val ∧ (i 0).val < win0_3.index _ (0 : Fin 2) * 256 + 256; rw [e0]; dsimp only; omega
  | ⟨1, _⟩ => show win0_3.index _ (1 : Fin 2) * 4096 ≤ (i 1).val ∧ (i 1).val < win0_3.index _ (1 : Fin 2) * 4096 + 4096; rw [e1]; omega
theorem pj_cover (i : S8192x32.Idx) : ∃ t : Fin cfg0.N, (cfg0.win 4).flush t = true ∧ i ∈ ((cfg0.win 4).blk t).view.set := by
  have hi0 : (i 0).val < 8192 := (i 0).isLt
  have hi1 : (i 1).val < 32 := (i 1).isLt
  have hN : (i 0).val / 256 < cfg0.N := lt_of_lt_of_eq (by omega : (i 0).val / 256 < 32) N_0.symm
  refine ⟨⟨(i 0).val / 256, hN⟩, flush0_4 _, ?_⟩
  rw [pj_mem_blk]
  obtain ⟨-, -, -, -, -, -, -, -, e0, e1⟩ := idx0 ⟨(i 0).val / 256, hN⟩
  intro a
  match a with
  | ⟨0, _⟩ => show win0_4.index _ (0 : Fin 2) * 256 ≤ (i 0).val ∧ (i 0).val < win0_4.index _ (0 : Fin 2) * 256 + 256; rw [e0]; dsimp only; omega
  | ⟨1, _⟩ => show win0_4.index _ (1 : Fin 2) * 32 ≤ (i 1).val ∧ (i 1).val < win0_4.index _ (1 : Fin 2) * 32 + 32; rw [e1]; omega

/-- The two arrays after the launch. -/
theorem xq_final (c : Dev nD) : (dat0 V c).arrAt 3 cfg0.N = XQ (V c main_arg0) (V c main_v0) :=
  (dat0 V c).arrAt_eq_of_cover 3 (XQ (V c main_arg0) (V c main_v0)) (fun t _ => xq_flushed V c t) xq_cover
theorem pj_final (c : Dev nD) : (dat0 V c).arrAt 4 cfg0.N = PJ (V c main_arg0) (V c main_v0) (V c main_v2) :=
  (dat0 V c).arrAt_eq_of_cover 4 (PJ (V c main_arg0) (V c main_v0) (V c main_v2)) (fun t _ => pj_flushed V c t) pj_cover

end Cert.KernelIdeal.Val0
end
-- ==== Proof.ValR1.lean ====
/-
  What the second launch leaves: the quantized weight, as one function of the weight array.

  Point `t` of the 16 writes rows `256·t … 256·t+255`; row `256·t + p` of the block it writes is the
  quantization of row `p` of the block it read, which is row `256·t + p` of the weight. A row's
  quantization looks at that row only, so the block written is the same rows of ONE whole-array
  function `WQ`: entry `(n, k)` is column `k` of the quantization of row `n`. The 16 blocks tile the
  array (row `r` lies in block `r / 256`), so the array ends equal to `WQ` of the weight.
-/
import proofs.«181425_j56727928045732_2_alg».proof.Proof.FrameR1
import proofs.«181425_j56727928045732_2_alg».proof.Proof.Payloads
import proofs.«181425_j56727928045732_2_alg».proof.Proof.Spec
import Idealize.ShloMosaic.Lib.Pipeline.Value
import Idealize.ShloMosaic.Lib.ValueIdx

set_option maxRecDepth 16384
noncomputable section
namespace Cert.KernelIdeal.Val
open Cert.KernelIdeal Cert.KernelIdeal.Gen Cert.KernelIdeal.Hand Cert.Quant
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offset of a whole-buffer rectangle. -/
theorem hz2 : (![0, 0] : Fin 2 → Nat) = fun _ => 0 := funext fun a => by fin_cases a <;> rfl

/-- The quantized weight: entry `(n, k)` is column `k` of the quantization of row `n`. -/
def WQ (w : S4096x4096.Idx → EReal) : S4096x4096.Idx → EReal := fun i => fq (wrow w (i 0)) (i 1)

/-- Both windows' block index at point `t` is `(t, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem t_lt1 (t : Fin cfg1.N) : t.val < 16 := lt_of_lt_of_eq t.isLt N_1

/-- An element of point `t`'s block of either window sits at row `256·t + its row`, same column. -/
theorem emb1_0 (t : Fin cfg1.N) (p : Fin 256) (k : Fin 4096) :
    ((cfg1.win 0).blk t).view.emb (ix2 p k) = ix2 (⟨t.val * 256 + p.val, by have := t_lt1 t; omega⟩ : Fin 4096) k := by
  obtain ⟨e0, e1, e2, e3⟩ := idx1 t
  funext a; apply Fin.ext
  match a with
  | ⟨0, _⟩ => show win1_0.index t (0 : Fin 2) * 256 + 1 * p.val = t.val * 256 + p.val; omega
  | ⟨1, _⟩ => show win1_0.index t (1 : Fin 2) * 4096 + 1 * k.val = k.val; omega
theorem emb1_1 (t : Fin cfg1.N) (p : Fin 256) (k : Fin 4096) :
    ((cfg1.win 1).blk t).view.emb (ix2 p k) = ix2 (⟨t.val * 256 + p.val, by have := t_lt1 t; omega⟩ : Fin 4096) k := by
  obtain ⟨e0, e1, e2, e3⟩ := idx1 t
  funext a; apply Fin.ext
  match a with
  | ⟨0, _⟩ => show win1_1.index t (0 : Fin 2) * 256 + 1 * p.val = t.val * 256 + p.val; omega
  | ⟨1, _⟩ => show win1_1.index t (1 : Fin 2) * 4096 + 1 * k.val = k.val; omega

theorem blk1_row (c : Dev nD) (t : Fin cfg1.N) (p : Fin 256) (k : Fin 4096) :
    iblk1 V c 0 t (ix2 p k) = V c main_arg1 (ix2 (⟨t.val * 256 + p.val, by have := t_lt1 t; omega⟩ : Fin 4096) k) := by
  unfold iblk1
  rw [View.read_apply, emb1_0]
  rfl

/-- What point `t` writes back is block `t` of `WQ` of the weight as the launch finds it. -/
theorem wq_flushed (c : Dev nD) (t : Fin cfg1.N) :
    (dat1 V c).flushed 1 t = ((cfg1.win 1).blk t).view.read (Elt Ideal) (WQ (V c main_arg1)) := by
  show (cfg1.win 1).cut (grid1.coords t) ((dat1 V c).after 1 t) = _
  rw [after1_1]; unfold out1_1
  rw [View.canon_unit_zero hz2]
  simp only [View.ld_unit_zero (S := S256x4096) hz2]
  funext j
  obtain ⟨p, q, rfl⟩ : ∃ (p : Fin 256) (q : Fin 4096), j = ix2 p q := ⟨j 0, j 1, eq_ix2 j⟩
  refine (Cert.KernelIdeal.Pay.wq_apply _ p q).trans ?_
  rw [View.read_apply]
  show _ = WQ (V c main_arg1) (((cfg1.win 1).blk t).view.emb (ix2 p q))
  rw [emb1_1]
  show fq (fun k => iblk1 V c 0 t (ix2 p k)) q = fq (wrow (V c main_arg1) ⟨t.val * 256 + p.val, _⟩) q
  refine congrArg (fun r => fq r q) (funext fun k => ?_)
  exact blk1_row V c t p k

theorem mem_blk1 (t : Fin cfg1.N) (i : S4096x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v5).slice (win1_1.rect t)).set ↔ _
  rw [View.set_slice_whole, Rect.mem_set_unit]
  exact Iff.rfl

/-- Every entry lies in the block of the point `row / 256`. -/
theorem cover1 (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hN : (i 0).val / 256 < cfg1.N := lt_of_lt_of_eq (by omega : (i 0).val / 256 < 16) N_1.symm
  refine ⟨⟨(i 0).val / 256, hN⟩, flush1_1 _, ?_⟩
  rw [mem_blk1]
  obtain ⟨e0, e1, e2, e3⟩ := idx1 ⟨(i 0).val / 256, hN⟩
  intro a
  match a with
  | ⟨0, _⟩ => show win1_1.index _ (0 : Fin 2) * 256 ≤ (i 0).val ∧ (i 0).val < win1_1.index _ (0 : Fin 2) * 256 + 256; rw [e2]; dsimp only; omega
  | ⟨1, _⟩ => show win1_1.index _ (1 : Fin 2) * 4096 ≤ (i 1).val ∧ (i 1).val < win1_1.index _ (1 : Fin 2) * 4096 + 4096; rw [e3]; omega

/-- The array after the launch. -/
theorem wq_final (c : Dev nD) : (dat1 V c).arrAt 1 cfg1.N = WQ (V c main_arg1) :=
  (dat1 V c).arrAt_eq_of_cover 1 (WQ (V c main_arg1)) (fun t _ => wq_flushed V c t) cover1

end Cert.KernelIdeal.Val
end
-- ==== Proof.TileSum.lean ====
/-
  A sum over 4096 columns is the sum of its four consecutive tiles of 1024 columns, added one after another
  onto zero.

  Column K lies in tile K / 1024 at place K % 1024, and (tile, place) ↦ tile · 1024 + place is a bijection from
  4 × 1024 pairs onto the 4096 columns. Addition of extended reals is commutative and associative with unit 0, so
  re-indexing the sum along that bijection, splitting it tile by tile, and writing out the four tiles is all there is.
-/
import Mathlib.Algebra.BigOperators.Fin
import Mathlib.Data.Fintype.BigOperators
import proofs.«181425_j56727928045732_2_alg».proof.Proof.Spec

noncomputable section

namespace Cert.Quant

/-- Place j of tile k, as a column. -/
def tcol (k : Fin 4) (j : Fin 1024) : Fin 4096 := ⟨k.val * 1024 + j.val, by omega⟩

/-- The part of the sum that tile k carries. -/
def tile (f : Fin 4096 → EReal) (k : Fin 4) : EReal := ∑ j : Fin 1024, f (tcol k j)

theorem tcol_div (k : Fin 4) (j : Fin 1024) : (tcol k j).val / 1024 = k.val := by
  show (k.val * 1024 + j.val) / 1024 = k.val; omega

theorem tcol_mod (k : Fin 4) (j : Fin 1024) : (tcol k j).val % 1024 = j.val := by
  show (k.val * 1024 + j.val) % 1024 = j.val; omega

/-- (tile, place) and column are the same thing. -/
def tcolEquiv : Fin 4 × Fin 1024 ≃ Fin 4096 where
  toFun p := tcol p.1 p.2
  invFun K := (⟨K.val / 1024, by omega⟩, ⟨K.val % 1024, by omega⟩)
  left_inv p := Prod.ext (Fin.ext (tcol_div p.1 p.2)) (Fin.ext (tcol_mod p.1 p.2))
  right_inv K := Fin.ext (by show K.val / 1024 * 1024 + K.val % 1024 = K.val; omega)

theorem sum_eq_tiles (f : Fin 4096 → EReal) :
    ∑ K : Fin 4096, f K = ((((0 : EReal) + tile f 0) + tile f 1) + tile f 2) + tile f 3 := by
  have e : ∑ K : Fin 4096, f K = ∑ p : Fin 4 × Fin 1024, f (tcol p.1 p.2) :=
    (tcolEquiv.sum_comp f).symm
  rw [e, Fintype.sum_prod_type' (fun k j => f (tcol k j)), Fin.sum_univ_four, zero_add]
  rfl

end Cert.Quant

end
-- ==== Proof.ValR2.lean ====
/-
  What the third launch leaves in the result array, as one function of the five arrays it reads.

  The grid is 8 × 4 × 4: point `t = 16·i + 4·j + k` sees rows `1024·i …` of the quantized activation
  and rows `1024·j …` of the quantized weight, both at columns `1024·k …`, and adds their 1024-column
  contraction onto an accumulator that was set to zero when `k = 0`. At `k = 3` the accumulator holds
  `((0 + T₀) + T₁) + T₂) + T₃`, the four 1024-column tiles of the 4096-column contraction in order,
  which is the whole contraction (addition of extended reals is associative and commutative, so
  the grouping does not matter and no finiteness is used); the point then writes
  `(accumulator + ∑ r, proj · up) + bias` into block `(i, j)` of the result. The 32 blocks `(i, j)`
  tile the 8192 × 4096 result and each is written once, at its `k = 3` point.

  The accumulator's contents after each point are a PARAMETER here, with the two equations of its
  recursion as hypotheses (zeroed and added to at `k = 0`; added to otherwise), and so is the fact
  that the proof data's write-back at a `k = 3` point is the epilogue's store.
-/
import proofs.«181425_j56727928045732_2_alg».proof.Proof.Gen.KernelIdeal.Launch
import proofs.«181425_j56727928045732_2_alg».proof.Proof.Gen.KernelIdeal.Points
import proofs.«181425_j56727928045732_2_alg».proof.Proof.Payloads
import proofs.«181425_j56727928045732_2_alg».proof.Proof.TileSum
import proofs.«181425_j56727928045732_2_alg».proof.Proof.Spec
import Idealize.ShloMosaic.Lib.Pipeline.Value
import Idealize.ShloMosaic.Lib.ValueIdx

set_option maxRecDepth 16384
noncomputable section
namespace Cert.KernelIdeal.Val2
open Cert.KernelIdeal Cert.KernelIdeal.Gen Cert.Quant
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Window `w`'s block at point `t`, read off its array as the launch finds it. -/
def blk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

theorem t_lt2 (t : Fin cfg2.N) : t.val < 128 := lt_of_lt_of_eq t.isLt N_2

/-- The six windows' block indices at point `t = 16·i + 4·j + k`. -/
theorem idx2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = 0
    ∧ win2_4.index t (0 : Fin 2) = t.val / 4 % 4 ∧ win2_4.index t (1 : Fin 2) = 0
    ∧ win2_5.index t (0 : Fin 2) = t.val / 16 ∧ win2_5.index t (1 : Fin 2) = t.val / 4 % 4 :=
  (by decide +kernel : ∀ t : Fin grid2.N, _)

/-- Row `p` of block-row `t / 16`, and of block-row `t / 4 % 4`; column `kk` of tile `t % 4`. -/
def rowI (t : Fin cfg2.N) (p : Fin 1024) : Fin 8192 := ⟨t.val / 16 * 1024 + p.val, by have := t_lt2 t; omega⟩
def rowJ (t : Fin cfg2.N) (q : Fin 1024) : Fin 4096 := ⟨t.val / 4 % 4 * 1024 + q.val, by omega⟩
def colK (t : Fin cfg2.N) (kk : Fin 1024) : Fin 4096 := ⟨t.val % 4 * 1024 + kk.val, by omega⟩

theorem emb2_0 (t : Fin cfg2.N) (p kk : Fin 1024) : ((cfg2.win 0).blk t).view.emb (ix2 p kk) = ix2 (rowI t p) (colK t kk) := by
  obtain ⟨e0, e1, -⟩ := idx2 t
  funext a; apply Fin.ext
  match a with
  | ⟨0, _⟩ => show win2_0.index t (0 : Fin 2) * 1024 + 1 * p.val = t.val / 16 * 1024 + p.val; omega
  | ⟨1, _⟩ => show win2_0.index t (1 : Fin 2) * 1024 + 1 * kk.val = t.val % 4 * 1024 + kk.val; omega
theorem emb2_1 (t : Fin cfg2.N) (q kk : Fin 1024) : ((cfg2.win 1).blk t).view.emb (ix2 q kk) = ix2 (rowJ t q) (colK t kk) := by
  obtain ⟨-, -, e2, e3, -⟩ := idx2 t
  funext a; apply Fin.ext
  match a with
  | ⟨0, _⟩ => show win2_1.index t (0 : Fin 2) * 1024 + 1 * q.val = t.val / 4 % 4 * 1024 + q.val; omega
  | ⟨1, _⟩ => show win2_1.index t (1 : Fin 2) * 1024 + 1 * kk.val = t.val % 4 * 1024 + kk.val; omega
theorem emb2_2 (t : Fin cfg2.N) (q : Fin 1024) : ((cfg2.win 2).blk t).view.emb (ix2 (0 : Fin 1) q) = ix2 (0 : Fin 1) (rowJ t q) := by
  obtain ⟨-, -, -, -, e4, e5, -⟩ := idx2 t
  funext a; apply Fin.ext
  match a with
  | ⟨0, _⟩ => show win2_2.index t (0 : Fin 2) * 1 + 1 * 0 = 0; omega
  | ⟨1, _⟩ => show win2_2.index t (1 : Fin 2) * 1024 + 1 * q.val = t.val / 4 % 4 * 1024 + q.val; omega
theorem emb2_3 (t : Fin cfg2.N) (p : Fin 1024) (r : Fin 32) : ((cfg2.win 3).blk t).view.emb (ix2 p r) = ix2 (rowI t p) r := by
  obtain ⟨-, -, -, -, -, -, e6, e7, -⟩ := idx2 t
  funext a; apply Fin.ext
  match a with
  | ⟨0, _⟩ => show win2_3.index t (0 : Fin 2) * 1024 + 1 * p.val = t.val / 16 * 1024 + p.val; omega
  | ⟨1, _⟩ => show win2_3.index t (1 : Fin 2) * 32 + 1 * r.val = r.val; omega
theorem emb2_4 (t : Fin cfg2.N) (q : Fin 1024) (r : Fin 32) : ((cfg2.win 4).blk t).view.emb (ix2 q r) = ix2 (rowJ t q) r := by
  obtain ⟨-, -, -, -, -, -, -, -, e8, e9, -⟩ := idx2 t
  funext a; apply Fin.ext
  match a with
  | ⟨0, _⟩ => show win2_4.index t (0 : Fin 2) * 1024 + 1 * q.val = t.val / 4 % 4 * 1024 + q.val; omega
  | ⟨1, _⟩ => show win2_4.index t (1 : Fin 2) * 32 + 1 * r.val = r.val; omega
theorem emb2_5 (t : Fin cfg2.N) (p q : Fin 1024) : ((cfg2.win 5).blk t).view.emb (ix2 p q) = ix2 (rowI t p) (rowJ t q) := by
  obtain ⟨-, -, -, -, -, -, -, -, -, -, e10, e11⟩ := idx2 t
  funext a; apply Fin.ext
  match a with
  | ⟨0, _⟩ => show win2_5.index t (0 : Fin 2) * 1024 + 1 * p.val = t.val / 16 * 1024 + p.val; omega
  | ⟨1, _⟩ => show win2_5.index t (1 : Fin 2) * 1024 + 1 * q.val = t.val / 4 % 4 * 1024 + q.val; omega

/-- The five input blocks read at an element: the arrays at the element's place. -/
theorem blk2_0 (c : Dev nD) (t : Fin cfg2.N) (p kk : Fin 1024) : blk2 V c 0 t (ix2 p kk) = V c main_v4_0 (ix2 (rowI t p) (colK t kk)) := by
  unfold blk2; rw [View.read_apply, emb2_0]; rfl
theorem blk2_1 (c : Dev nD) (t : Fin cfg2.N) (q kk : Fin 1024) : blk2 V c 1 t (ix2 q kk) = V c main_v5 (ix2 (rowJ t q) (colK t kk)) := by
  unfold blk2; rw [View.read_apply, emb2_1]; rfl
theorem blk2_2 (c : Dev nD) (t : Fin cfg2.N) (q : Fin 1024) : blk2 V c 2 t (ix2 (0 : Fin 1) q) = V c main_v1 (ix2 (0 : Fin 1) (rowJ t q)) := by
  unfold blk2; rw [View.read_apply, emb2_2]; rfl
theorem blk2_3 (c : Dev nD) (t : Fin cfg2.N) (p : Fin 1024) (r : Fin 32) : blk2 V c 3 t (ix2 p r) = V c main_v4_1 (ix2 (rowI t p) r) := by
  unfold blk2; rw [View.read_apply, emb2_3]; rfl
theorem blk2_4 (c : Dev nD) (t : Fin cfg2.N) (q : Fin 1024) (r : Fin 32) : blk2 V c 4 t (ix2 q r) = V c main_v3 (ix2 (rowJ t q) r) := by
  unfold blk2; rw [View.read_apply, emb2_4]; rfl

/-- THE RESULT as one function of the arrays the launch reads: quantized activation `xq`, quantized weight `wq`,
    bias row `b2`, projection `pj`, up-projection `lu`. -/
def OUT (xq : S8192x4096.Idx → EReal) (wq : S4096x4096.Idx → EReal) (b2 : S1x4096.Idx → EReal)
    (pj : S8192x32.Idx → EReal) (lu : S4096x32.Idx → EReal) : S8192x4096.Idx → EReal :=
  fun i => ((∑ K : Fin 4096, xq (ix2 (i 0) K) * wq (ix2 (i 1) K)) + ∑ r : Fin 32, pj (ix2 (i 0) r) * lu (ix2 (i 1) r)) + b2 (ix2 (0 : Fin 1) (i 1))

/-- The five arrays the launch reads, as functions into the extended reals. -/
abbrev aXQ (c : Dev nD) : S8192x4096.Idx → EReal := V c main_v4_0
abbrev aWQ (c : Dev nD) : S4096x4096.Idx → EReal := V c main_v5
abbrev aB (c : Dev nD) : S1x4096.Idx → EReal := V c main_v1
abbrev aPJ (c : Dev nD) : S8192x32.Idx → EReal := V c main_v4_1
abbrev aLU (c : Dev nD) : S4096x32.Idx → EReal := V c main_v3
/-- The two blocks a point multiplies, likewise. -/
abbrev bXQ (c : Dev nD) (t : Fin cfg2.N) : S1024x1024.Idx → EReal := blk2 V c 0 t
abbrev bWQ (c : Dev nD) (t : Fin cfg2.N) : S1024x1024.Idx → EReal := blk2 V c 1 t
abbrev bPJ (c : Dev nD) (t : Fin cfg2.N) : S1024x32.Idx → EReal := blk2 V c 3 t
abbrev bLU (c : Dev nD) (t : Fin cfg2.N) : S1024x32.Idx → EReal := blk2 V c 4 t

/-- The products whose 4096-column contraction the launch accumulates for result entry `(R, C)`. -/
def prodAt (c : Dev nD) (R : Fin 8192) (C : Fin 4096) : Fin 4096 → EReal :=
  fun K => aXQ V c (ix2 R K) * aWQ V c (ix2 C K)

/-- One point's contribution is tile `t % 4` of that contraction. -/
theorem tile_at (c : Dev nD) (t : Fin cfg2.N) (p q : Fin 1024) :
    ∑ kk : Fin 1024, bXQ V c t (ix2 p kk) * bWQ V c t (ix2 q kk)
      = tile (prodAt V c (rowI t p) (rowJ t q)) ⟨t.val % 4, by omega⟩ := by
  unfold tile prodAt
  refine Finset.sum_congr rfl fun kk _ => ?_
  exact congrArg₂ (fun a b : EReal => a * b) (blk2_0 V c t p kk) (blk2_1 V c t q kk)

section Acc

variable (acc : (c : Dev nD) → (n : ℕ) → n < cfg2.N → Vec Ideal S1024x1024 .f32)
  (hacc0 : ∀ c n (hn : n < cfg2.N), n % 4 = 0 →
    acc c n hn = k2_pay2 (F := Ideal) (k2_pay1 (F := Ideal)) (blk2 V c 0 ⟨n, hn⟩) (blk2 V c 1 ⟨n, hn⟩))
  (haccS : ∀ c n (hn : n < cfg2.N), n % 4 ≠ 0 →
    acc c n hn = k2_pay2 (F := Ideal) (acc c (n - 1) (Nat.lt_of_le_of_lt (Nat.sub_le n 1) hn)) (blk2 V c 0 ⟨n, hn⟩) (blk2 V c 1 ⟨n, hn⟩))

include hacc0 in
/-- At a `k = 0` point the accumulator is zero plus the first tile. -/
theorem acc_zero (c : Dev nD) (n : ℕ) (hn : n < cfg2.N) (h : n % 4 = 0) (p q : Fin 1024) (R : Fin 8192) (C : Fin 4096) (k : Fin 4)
    (hR : R.val = n / 16 * 1024 + p.val) (hC : C.val = n / 4 % 4 * 1024 + q.val) (hk : k.val = n % 4) :
    acc c n hn (ix2 p q) = 0 + tile (prodAt V c R C) k := by
  have eR : rowI ⟨n, hn⟩ p = R := Fin.ext hR.symm
  have eC : rowJ ⟨n, hn⟩ q = C := Fin.ext hC.symm
  have ek : (⟨n % 4, by omega⟩ : Fin 4) = k := Fin.ext hk.symm
  rw [hacc0 c n hn h, Cert.KernelIdeal.Pay.acc_apply, Cert.KernelIdeal.Pay.zero_apply, tile_at V c ⟨n, hn⟩ p q, eR, eC, ek]

include haccS in
/-- At any other point it is what the point before left plus this point's tile. -/
theorem acc_step (c : Dev nD) (n : ℕ) (hn : n < cfg2.N) (h : n % 4 ≠ 0) (p q : Fin 1024) (R : Fin 8192) (C : Fin 4096) (k : Fin 4)
    (hR : R.val = n / 16 * 1024 + p.val) (hC : C.val = n / 4 % 4 * 1024 + q.val) (hk : k.val = n % 4) :
    acc c n hn (ix2 p q) = acc c (n - 1) (Nat.lt_of_le_of_lt (Nat.sub_le n 1) hn) (ix2 p q) + tile (prodAt V c R C) k := by
  have eR : rowI ⟨n, hn⟩ p = R := Fin.ext hR.symm
  have eC : rowJ ⟨n, hn⟩ q = C := Fin.ext hC.symm
  have ek : (⟨n % 4, by omega⟩ : Fin 4) = k := Fin.ext hk.symm
  rw [haccS c n hn h, Cert.KernelIdeal.Pay.acc_apply, tile_at V c ⟨n, hn⟩ p q, eR, eC, ek]

include hacc0 haccS in
/-- At a `k = 3` point the accumulator holds the whole 4096-column contraction. -/
theorem acc_full (c : Dev nD) (t : Fin cfg2.N) (h3 : t.val % 4 = 3) (p q : Fin 1024) :
    acc c t.val t.isLt (ix2 p q) = ∑ K : Fin 4096, prodAt V c (rowI t p) (rowJ t q) K := by
  have hN := t_lt2 t
  have hlt : ∀ d, t.val - d < cfg2.N := fun d => Nat.lt_of_le_of_lt (Nat.sub_le _ _) t.isLt
  rw [sum_eq_tiles,
    acc_step V acc haccS c t.val t.isLt (by omega) p q (rowI t p) (rowJ t q) 3 rfl rfl (by show 3 = _; omega),
    acc_step V acc haccS c (t.val - 1) (hlt 1) (by omega) p q (rowI t p) (rowJ t q) 2
      (by show t.val / 16 * 1024 + p.val = _; omega) (by show t.val / 4 % 4 * 1024 + q.val = _; omega) (by show 2 = _; omega),
    acc_step V acc haccS c (t.val - 1 - 1) (Nat.lt_of_le_of_lt (Nat.sub_le _ _) (hlt 1)) (by omega) p q (rowI t p) (rowJ t q) 1
      (by show t.val / 16 * 1024 + p.val = _; omega) (by show t.val / 4 % 4 * 1024 + q.val = _; omega) (by show 1 = _; omega),
    acc_zero V acc hacc0 c (t.val - 1 - 1 - 1) (Nat.lt_of_le_of_lt (Nat.sub_le _ _) (Nat.lt_of_le_of_lt (Nat.sub_le _ _) (hlt 1))) (by omega) p q (rowI t p) (rowJ t q) 0
      (by show t.val / 16 * 1024 + p.val = _; omega) (by show t.val / 4 % 4 * 1024 + q.val = _; omega) (by show 0 = _; omega)]

variable (D2 : (c : Dev nD) → Dat τ (Elt Ideal) Unit ℕ (UR sig nD τ) ℕ cfg2 c)
  (hfl : ∀ c (t : Fin cfg2.N), t.val % 4 = 3 →
    (D2 c).flushed 5 t = k2_pay3 (F := Ideal) (blk2 V c 3 t) (blk2 V c 4 t) (acc c t.val t.isLt) (blk2 V c 2 t))

include hacc0 haccS hfl in
/-- What a `k = 3` point writes back is its block of `OUT` of the arrays as the launch finds them. -/
theorem out_flushed (c : Dev nD) (t : Fin cfg2.N) (h3 : t.val % 4 = 3) :
    (D2 c).flushed 5 t = ((cfg2.win 5).blk t).view.read (Elt Ideal)
      (OUT (V c main_v4_0) (V c main_v5) (V c main_v1) (V c main_v4_1) (V c main_v3)) := by
  rw [hfl c t h3]
  funext j
  obtain ⟨p, q, rfl⟩ : ∃ (p q : Fin 1024), j = ix2 p q := ⟨j 0, j 1, eq_ix2 j⟩
  refine (Cert.KernelIdeal.Pay.out_apply _ _ _ _ p q).trans ?_
  rw [View.read_apply]
  show _ = OUT (V c main_v4_0) (V c main_v5) (V c main_v1) (V c main_v4_1) (V c main_v3) (((cfg2.win 5).blk t).view.emb (ix2 p q))
  rw [emb2_5, acc_full V acc hacc0 haccS c t h3 p q, blk2_2]
  show _ = ((∑ K : Fin 4096, aXQ V c (ix2 (rowI t p) K) * aWQ V c (ix2 (rowJ t q) K))
      + ∑ r : Fin 32, aPJ V c (ix2 (rowI t p) r) * aLU V c (ix2 (rowJ t q) r)) + aB V c (ix2 (0 : Fin 1) (rowJ t q))
  refine congrArg (· + _) (congrArg (_ + ·) (Finset.sum_congr rfl fun r _ => ?_))
  exact congrArg₂ (fun a b : EReal => a * b) (blk2_3 V c t p r) (blk2_4 V c t q r)

/-- An entry of the result is in point `t`'s block iff each coordinate is in the block's range. -/
theorem mem_blk5 (t : Fin cfg2.N) (i : S8192x4096.Idx) :
    i ∈ ((cfg2.win 5).blk t).view.set ↔ ∀ a : Fin 2, win2_5.index t a * S1024x1024.size a ≤ (i a).val ∧ (i a).val < win2_5.index t a * S1024x1024.size a + S1024x1024.size a := by
  show i ∈ ((View.whole main_v6).slice (win2_5.rect t)).set ↔ _
  rw [View.set_slice_whole, Rect.mem_set_unit]
  exact Iff.rfl

/-- Every entry `(M, N)` lies in the block written at the point `16·(M / 1024) + 4·(N / 1024) + 3`. -/
theorem cover5 (i : S8192x4096.Idx) : ∃ t : Fin cfg2.N, (cfg2.win 5).flush t = true ∧ i ∈ ((cfg2.win 5).blk t).view.set := by
  have hi0 : (i 0).val < 8192 := (i 0).isLt
  have hi1 : (i 1).val < 4096 := (i 1).isLt
  have hN : 16 * ((i 0).val / 1024) + 4 * ((i 1).val / 1024) + 3 < cfg2.N :=
    lt_of_lt_of_eq (by omega : 16 * ((i 0).val / 1024) + 4 * ((i 1).val / 1024) + 3 < 128) N_2.symm
  refine ⟨⟨_, hN⟩, (flush2_5 _).mpr (by show (16 * ((i 0).val / 1024) + 4 * ((i 1).val / 1024) + 3) % 4 = 3; omega), ?_⟩
  rw [mem_blk5]
  obtain ⟨-, -, -, -, -, -, -, -, -, -, e10, e11⟩ := idx2 ⟨_, hN⟩
  intro a
  match a with
  | ⟨0, _⟩ => show win2_5.index _ (0 : Fin 2) * 1024 ≤ (i 0).val ∧ (i 0).val < win2_5.index _ (0 : Fin 2) * 1024 + 1024; rw [e10]; dsimp only; omega
  | ⟨1, _⟩ => show win2_5.index _ (1 : Fin 2) * 1024 ≤ (i 1).val ∧ (i 1).val < win2_5.index _ (1 : Fin 2) * 1024 + 1024; rw [e11]; dsimp only; omega

include hacc0 haccS hfl in
/-- THE RESULT ARRAY after the launch. -/
theorem out_final (c : Dev nD) :
    (D2 c).arrAt 5 cfg2.N = OUT (V c main_v4_0) (V c main_v5) (V c main_v1) (V c main_v4_1) (V c main_v3) :=
  (D2 c).arrAt_eq_of_cover 5 _ (fun t hf => out_flushed V acc hacc0 haccS D2 hfl c t ((flush2_5 t).mp hf)) cover5

end Acc

end Cert.KernelIdeal.Val2
end
-- ==== Proof.KernelWhole.lean ====
/-
  The kernel's result array as one function of its six arguments.

  The run leaves in the result array what the third launch's write-backs leave. That launch reads five
  arrays: the quantized activation and the projection (left by the first launch from the activation,
  the smoothing row and the down-projection), the quantized weight (left by the second launch from the
  weight), and the bias row and the up-projection (left by the host operations). The host operations
  are two reshapes `[4096] → [1, 4096]` (entry `(0, k)` of the result is entry `k` of the operand) and
  two changes of float format, which are the identity on extended reals. Substituting each array's
  contents into the third launch's whole-array function gives, entry by entry,
    `(∑ k, q(xs m) k · q(w n) k + ∑ r, (∑ k, xs m k · down k r) · up n r) + b n`,
  the specification's `result`.
-/
import proofs.«181425_j56727928045732_2_alg».proof.Proof.FrameRun
import proofs.«181425_j56727928045732_2_alg».proof.Proof.FrameR2
import proofs.«181425_j56727928045732_2_alg».proof.Proof.ValR0
import proofs.«181425_j56727928045732_2_alg».proof.Proof.ValR1
import proofs.«181425_j56727928045732_2_alg».proof.Proof.ValR2
import proofs.«181425_j56727928045732_2_alg».proof.Proof.Spec
import Idealize.ShloMosaic.Lib.StableHlo.Run
import Idealize.ShloMosaic.Lib.ValueLayout
import Idealize.ShloMosaic.Lib.Pipeline.Value

set_option maxRecDepth 16384
noncomputable section
namespace Cert.KernelIdeal.Whole
open Cert.KernelIdeal Cert.KernelIdeal.Gen Cert.KernelIdeal.Hand Cert.Quant
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The six arguments on core `c`, as functions into the extended reals. -/
abbrev aX (c : Dev nD) : S8192x4096.Idx → EReal := m ((c.tc : Thread nD τ).loc main_arg0)
abbrev aW (c : Dev nD) : S4096x4096.Idx → EReal := m ((c.tc : Thread nD τ).loc main_arg1)
abbrev aD (c : Dev nD) : S4096x32.Idx → EReal := m ((c.tc : Thread nD τ).loc main_arg2)
abbrev aU (c : Dev nD) : S4096x32.Idx → EReal := m ((c.tc : Thread nD τ).loc main_arg3)
abbrev aS (c : Dev nD) : S4096.Idx → EReal := m ((c.tc : Thread nD τ).loc main_arg4)
abbrev aB (c : Dev nD) : S4096.Idx → EReal := m ((c.tc : Thread nD τ).loc main_arg5)
/-- The two rows the host operations make of the smoothing factors and the bias. -/
abbrev sRow (c : Dev nD) : S1x4096.Idx → EReal := shapeCast S1x4096 (aS m c) shapeCasts_S4096_S1x4096
abbrev bRow (c : Dev nD) : S1x4096.Idx → EReal := shapeCast S1x4096 (aB m c) shapeCasts_S4096_S1x4096

/-! ## What the four host operations leave -/

theorem host_v0 (c : Dev nD) : (W1 m ρ c (Proc.devRef .tc main_v0) : S1x4096.Idx → EReal) = sRow m c := by
  show StableHlo.after hostOps0 (fun b => m (c, b)) (Proc.devRef .tc main_v0) = _
  after_results
  rfl
theorem host_v1 (c : Dev nD) : (W1 m ρ c (Proc.devRef .tc main_v1) : S1x4096.Idx → EReal) = bRow m c := by
  show StableHlo.after hostOps0 (fun b => m (c, b)) (Proc.devRef .tc main_v1) = _
  after_results
  rfl
theorem host_v2 (c : Dev nD) : (W1 m ρ c (Proc.devRef .tc main_v2) : S4096x32.Idx → EReal) = aD m c := by
  show StableHlo.after hostOps0 (fun b => m (c, b)) (Proc.devRef .tc main_v2) = _
  after_results
  rfl
theorem host_v3 (c : Dev nD) : (W1 m ρ c (Proc.devRef .tc main_v3) : S4096x32.Idx → EReal) = aU m c := by
  show StableHlo.after hostOps0 (fun b => m (c, b)) (Proc.devRef .tc main_v3) = _
  after_results
  rfl

/-! ## What the third launch finds in the five arrays it reads -/

/-- The quantized activation: left by the first launch, untouched by the second. -/
theorem entry_xq (c : Dev nD) : (V3 m ρ c main_v4_0 : S8192x4096.Idx → EReal) = Cert.KernelIdeal.Val0.XQ (aX m c) (sRow m c) := by
  refine (W3_of_ne m ρ c main_v4_0 (by decide)).trans ((W2_arr m ρ c 3).trans ((Cert.KernelIdeal.Val0.xq_final (V1 m ρ) c).trans ?_))
  rw [show (V1 m ρ c main_arg0 : S8192x4096.Idx → EReal) = aX m c from host_keeps m ρ c main_arg0 (by decide),
    show (V1 m ρ c main_v0 : S1x4096.Idx → EReal) = sRow m c from host_v0 m ρ c]
/-- The projection: likewise. -/
theorem entry_pj (c : Dev nD) : (V3 m ρ c main_v4_1 : S8192x32.Idx → EReal) = Cert.KernelIdeal.Val0.PJ (aX m c) (sRow m c) (aD m c) := by
  refine (W3_of_ne m ρ c main_v4_1 (by decide)).trans ((W2_arr m ρ c 4).trans ((Cert.KernelIdeal.Val0.pj_final (V1 m ρ) c).trans ?_))
  rw [show (V1 m ρ c main_arg0 : S8192x4096.Idx → EReal) = aX m c from host_keeps m ρ c main_arg0 (by decide),
    show (V1 m ρ c main_v0 : S1x4096.Idx → EReal) = sRow m c from host_v0 m ρ c,
    show (V1 m ρ c main_v2 : S4096x32.Idx → EReal) = aD m c from host_v2 m ρ c]
/-- The quantized weight: left by the second launch from the weight, which nothing before it writes. -/
theorem entry_wq (c : Dev nD) : (V3 m ρ c main_v5 : S4096x4096.Idx → EReal) = Cert.KernelIdeal.Val.WQ (aW m c) := by
  refine (W3_arr m ρ c 1).trans ((Cert.KernelIdeal.Val.wq_final (V2 m ρ) c).trans ?_)
  rw [show (V2 m ρ c main_arg1 : S4096x4096.Idx → EReal) = aW m c from
    (W2_of_ne m ρ c main_arg1 (by decide)).trans (host_keeps m ρ c main_arg1 (by decide))]
/-- The bias row and the up-projection: as the host operations left them. -/
theorem entry_b (c : Dev nD) : (V3 m ρ c main_v1 : S1x4096.Idx → EReal) = bRow m c :=
  (W3_of_ne m ρ c main_v1 (by decide)).trans ((W2_of_ne m ρ c main_v1 (by decide)).trans (host_v1 m ρ c))
theorem entry_u (c : Dev nD) : (V3 m ρ c main_v3 : S4096x32.Idx → EReal) = aU m c :=
  (W3_of_ne m ρ c main_v3 (by decide)).trans ((W2_of_ne m ρ c main_v3 (by decide)).trans (host_v3 m ρ c))

/-! ## The result -/

/-- The third launch's whole-array function of these five arrays IS the specification's result of the six arguments. -/
theorem out_eq_result (x : S8192x4096.Idx → EReal) (w : S4096x4096.Idx → EReal) (d u : S4096x32.Idx → EReal) (s b : S4096.Idx → EReal) :
    Cert.KernelIdeal.Val2.OUT (Cert.KernelIdeal.Val0.XQ x (shapeCast S1x4096 s shapeCasts_S4096_S1x4096)) (Cert.KernelIdeal.Val.WQ w)
        (shapeCast S1x4096 b shapeCasts_S4096_S1x4096) (Cert.KernelIdeal.Val0.PJ x (shapeCast S1x4096 s shapeCasts_S4096_S1x4096) d) u
      = result x w d u s b := by
  funext i
  obtain ⟨M, N, rfl⟩ : ∃ (M : Fin 8192) (N : Fin 4096), i = ix2 M N := ⟨i 0, i 1, eq_ix2 i⟩
  have hs : (fun k : Fin 4096 => x (ix2 M k) * shapeCast S1x4096 s shapeCasts_S4096_S1x4096 (ix2 (0 : Fin 1) k)) = xs x s M :=
    funext fun k => by rw [shapeCast_a_1a_apply]; rfl
  show ((∑ K : Fin 4096, fq (fun k => x (ix2 M k) * shapeCast S1x4096 s shapeCasts_S4096_S1x4096 (ix2 (0 : Fin 1) k)) K * fq (wrow w N) K)
      + ∑ r : Fin 32, (∑ k : Fin 4096, (x (ix2 M k) * shapeCast S1x4096 s shapeCasts_S4096_S1x4096 (ix2 (0 : Fin 1) k)) * d (ix2 k r)) * u (ix2 N r))
      + shapeCast S1x4096 b shapeCasts_S4096_S1x4096 (ix2 (0 : Fin 1) N)
    = (mainAt x w s M N + loraAt x s d u M N) + b (ix1 N)
  rw [shapeCast_a_1a_apply, hs]
  have hp : ∀ r : Fin 32, (∑ k : Fin 4096, (x (ix2 M k) * shapeCast S1x4096 s shapeCasts_S4096_S1x4096 (ix2 (0 : Fin 1) k)) * d (ix2 k r)) = proj x s d M r :=
    fun r => Finset.sum_congr rfl fun k _ => by rw [shapeCast_a_1a_apply]; rfl
  simp only [hp]
  rfl

/-- The accumulator's two equations and the epilogue's write-back, for the third launch's proof data. -/
theorem flushed5 (V : (c : Dev nD) → (b : Ref sig .tc) → Buf (Elt Ideal) ((c : Thread nD τ).loc b)) (c : Dev nD) (t : Fin cfg2.N) (h3 : t.val % 4 = 3) :
    (dat2 V c).flushed 5 t = k2_pay3 (F := Ideal) (Cert.KernelIdeal.Val2.blk2 V c 3 t) (Cert.KernelIdeal.Val2.blk2 V c 4 t) (acc2 V c t.val t.isLt) (Cert.KernelIdeal.Val2.blk2 V c 2 t) := by
  show (cfg2.win 5).cut (grid2.coords t) ((dat2 V c).after 5 t) = _
  rw [after2_5]
  rfl

/-- THE RESULT ARRAY: what the third launch's write-backs leave is the specification's result of the six arguments. -/
theorem kernel_result (c : Dev nD) :
    ((dat2 (V3 m ρ) c).arrAt 5 cfg2.N : S8192x4096.Idx → EReal) = result (aX m c) (aW m c) (aD m c) (aU m c) (aS m c) (aB m c) := by
  refine (Cert.KernelIdeal.Val2.out_final (V3 m ρ) (acc2 (V3 m ρ))
    (fun c n hn h => acc2_zero (V3 m ρ) c n hn h) (fun c n hn h => acc2_step (V3 m ρ) c n hn h)
    (fun c => dat2 (V3 m ρ) c) (fun c t h3 => flushed5 (V3 m ρ) c t h3) c).trans ?_
  rw [entry_xq m ρ c, entry_wq m ρ c, entry_b m ρ c, entry_pj m ρ c, entry_u m ρ c]
  exact out_eq_result (aX m c) (aW m c) (aD m c) (aU m c) (aS m c) (aB m c)

/-- THE KERNEL'S RUN, read: every weakly fair execution terminates, nothing faulting, with the result array at the
    specification's result of the arguments and the six arguments as launched. -/
theorem run_value : θ_run defs (onTc (τ := τ) (main (F := Ideal))) ⟨m, fun _ => 0, ρ⟩ (fun r => ∀ c : Dev nD,
      r.2.mem ((c.tc : Thread nD τ).loc main_v6) = result (aX m c) (aW m c) (aD m c) (aU m c) (aS m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_result m ρ c), (h c).2⟩)
    (run_post (F := Ideal) (fun V c => dat2 V c) m ρ (fun V c w => A_eq2 V c w) (fun _ _ _ => rfl) (fun _ _ _ => rfl) (fun _ _ _ => rfl)
      (fun V c => body_obligation2 V c) (fun V c => hin2 V c) (fun V c => hout2 V c))

end Cert.KernelIdeal.Whole
end
-- ==== Proof.RefQuant.lean ====
/-
  The reference program's two quantized operands, read at an index.

  Each of the two is the same four steps on a row of 4096 numbers cut into 64 groups of 64: the row itself
  (for the activation, the argument times the smoothing vector; for the weight, the argument's row), each
  group's largest magnitude as a running maximum from -∞ over the group's 64 places, the group's scale, and the
  entry divided by its group's scale, rounded half to even, clamped to [-8, 7] and multiplied by the scale again.
  The only arithmetic is the reshape between a column k and its (group, place) = (k / 64, k % 64).
-/
import proofs.«181425_j56727928045732_2_alg».proof.Proof.Gen.ReferenceIdeal.Read
import proofs.«181425_j56727928045732_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Quant

/-! ## The activation: row m of the first argument times the smoothing vector -/

/-- The smoothed activation at (m, k). -/
theorem smoothed_at (x0 : (⟨S8192x4096, .f32⟩ : BufTy).Contents (Elt Ideal)) (x4 : (⟨S4096, .f32⟩ : BufTy).Contents (Elt Ideal))
    (m : Fin 8192) (k : Fin 4096) :
    val_main_v2 (F := Ideal) x0 x4 (ix2 m k) = xs x0 x4 m k := by
  rw [val_main_v2_apply, val_main_v1_apply, val_main_v0_apply]
  have e : idx_main_v0 (idx_main_v1 (ix2 m k)) = ix1 k :=
    funext fun a => Fin.ext (by match a with | ⟨0, _⟩ => rfl)
  rw [e]; rfl

/-- Group g, place j of row m, as a column of the row. -/
theorem act_cell (m : Fin 8192) (g j : Fin 64) : idx_main_v3 (ix3 m g j) = ix2 m (gpos g j) :=
  funext fun a => Fin.ext (by
    match a with
    | ⟨0, _⟩ => show ((m.val * 64 + g.val) * 64 + j.val) / 4096 = m.val; omega
    | ⟨1, _⟩ => show ((m.val * 64 + g.val) * 64 + j.val) % 4096 = g.val * 64 + j.val; omega)

theorem act_lift (h : S8192x64x64.Reduces [2] S8192x64) (m : Fin 8192) (g : Fin 64) (j : Fin (S8192x64x64.size 2)) :
    h.lift (ix2 m g) j = ix3 m g (⟨j.val, j.isLt⟩ : Fin 64) := by
  funext c; apply Fin.ext
  fin_cases c <;> rfl

/-- The activation's group maximum at (m, g). -/
theorem act_gmax (x0 : (⟨S8192x4096, .f32⟩ : BufTy).Contents (Elt Ideal)) (x4 : (⟨S4096, .f32⟩ : BufTy).Contents (Elt Ideal))
    (m : Fin 8192) (g : Fin 64) :
    val_main_v5 (F := Ideal) x0 x4 (ix2 m g) = gmax (xs x0 x4 m) g := by
  have h : S8192x64x64.Reduces [2] S8192x64 := by decide
  unfold val_main_v5
  rw [Host.reduce_eq_fold_single FloatOps.maximumf _ _ reducesTo_S8192x64x64_S8192x64_d2 h h_S_]
  unfold gmax negInf
  refine congrArg (fun f => Finset.fold max (Ideal.ofBits .f32 0xFF800000#32) f (Finset.univ : Finset (Fin 64))) (funext fun j => ?_)
  show val_main_v4 (F := Ideal) x0 x4 (h.lift (ix2 m g) j) = _
  rw [act_lift h m g j, val_main_v4_apply, val_main_v3_apply, act_cell, smoothed_at, Ideal.hostAbsf_def, Ideal.absf_def]
  rfl

/-- The activation's group scale, read at the unit third coordinate. -/
theorem act_gscale (x0 : (⟨S8192x4096, .f32⟩ : BufTy).Contents (Elt Ideal)) (x4 : (⟨S4096, .f32⟩ : BufTy).Contents (Elt Ideal))
    (m : Fin 8192) (g : Fin 64) :
    val_main_v10 (F := Ideal) x0 x4 (ix3 m g (0 : Fin 1)) = gscale (xs x0 x4 m) g := by
  rw [val_main_v10_apply, val_main_v8_apply, val_main_v6_apply, val_main_v7_apply, val_main_cst_0_apply,
    val_main_v9_apply, val_main_cst_1_apply]
  have e : idx_main_v6 (ix3 m g (0 : Fin 1)) = ix2 m g :=
    funext fun a => Fin.ext (by match a with | ⟨0, _⟩ => rfl | ⟨1, _⟩ => rfl)
  rw [e, act_gmax]
  rfl

/-- Column k of row m, as group, place. -/
theorem act_uncell (m : Fin 8192) (k : Fin 4096) : idx_main_v17 (ix2 m k) = ix3 m (grp k) (gsub k) :=
  funext fun a => Fin.ext (by
    match a with
    | ⟨0, _⟩ => show (m.val * 4096 + k.val) / 4096 = m.val; omega
    | ⟨1, _⟩ => show (m.val * 4096 + k.val) / 64 % 64 = k.val / 64; omega
    | ⟨2, _⟩ => show (m.val * 4096 + k.val) % 64 = k.val % 64; omega)

/-- The quantized activation at (m, k). -/
theorem act_fq (x0 : (⟨S8192x4096, .f32⟩ : BufTy).Contents (Elt Ideal)) (x4 : (⟨S4096, .f32⟩ : BufTy).Contents (Elt Ideal))
    (m : Fin 8192) (k : Fin 4096) :
    val_main_v17 (F := Ideal) x0 x4 (ix2 m k) = fq (xs x0 x4 m) k := by
  rw [val_main_v17_apply, act_uncell, val_main_v16_apply, val_main_v14_apply, val_main_call1_v4_apply,
    val_main_call1_v3_apply, val_main_cst_3_apply, val_main_call1_v2_apply, val_main_call1_v1_apply,
    val_main_call1_v0_apply, val_main_cst_2_apply, val_main_v13_apply, val_main_v12_apply, val_main_v3_apply,
    val_main_v11_apply, val_main_v15_apply, act_cell, gpos_grp_gsub, smoothed_at]
  have e1 : idx_main_v11 (ix3 m (grp k) (gsub k)) = ix3 m (grp k) (0 : Fin 1) :=
    funext fun a => Fin.ext (by match a with | ⟨0, _⟩ => rfl | ⟨1, _⟩ => rfl | ⟨2, _⟩ => rfl)
  have e2 : idx_main_v15 (ix3 m (grp k) (gsub k)) = ix3 m (grp k) (0 : Fin 1) :=
    funext fun a => Fin.ext (by match a with | ⟨0, _⟩ => rfl | ⟨1, _⟩ => rfl | ⟨2, _⟩ => rfl)
  rw [e1, e2, act_gscale]
  rfl

/-! ## The weight: the same four steps on row n of the second argument -/

/-- Group g, place j of weight row n, as a column of the row. -/
theorem wt_cell (n : Fin 4096) (g j : Fin 64) : idx_main_v18 (ix3 n g j) = ix2 n (gpos g j) :=
  funext fun a => Fin.ext (by
    match a with
    | ⟨0, _⟩ => show ((n.val * 64 + g.val) * 64 + j.val) / 4096 = n.val; omega
    | ⟨1, _⟩ => show ((n.val * 64 + g.val) * 64 + j.val) % 4096 = g.val * 64 + j.val; omega)

theorem wt_lift (h : S4096x64x64.Reduces [2] S4096x64) (n : Fin 4096) (g : Fin 64) (j : Fin (S4096x64x64.size 2)) :
    h.lift (ix2 n g) j = ix3 n g (⟨j.val, j.isLt⟩ : Fin 64) := by
  funext c; apply Fin.ext
  fin_cases c <;> rfl

/-- The weight's group maximum at (n, g). -/
theorem wt_gmax (x1 : (⟨S4096x4096, .f32⟩ : BufTy).Contents (Elt Ideal)) (n : Fin 4096) (g : Fin 64) :
    val_main_v20 (F := Ideal) x1 (ix2 n g) = gmax (wrow x1 n) g := by
  have h : S4096x64x64.Reduces [2] S4096x64 := by decide
  unfold val_main_v20
  rw [Host.reduce_eq_fold_single FloatOps.maximumf _ _ reducesTo_S4096x64x64_S4096x64_d2 h h_S_]
  unfold gmax negInf
  refine congrArg (fun f => Finset.fold max (Ideal.ofBits .f32 0xFF800000#32) f (Finset.univ : Finset (Fin 64))) (funext fun j => ?_)
  show val_main_v19 (F := Ideal) x1 (h.lift (ix2 n g) j) = _
  rw [wt_lift h n g j, val_main_v19_apply, val_main_v18_apply, wt_cell, Ideal.hostAbsf_def, Ideal.absf_def]
  rfl

/-- The weight's group scale, read at the unit third coordinate. -/
theorem wt_gscale (x1 : (⟨S4096x4096, .f32⟩ : BufTy).Contents (Elt Ideal)) (n : Fin 4096) (g : Fin 64) :
    val_main_v25 (F := Ideal) x1 (ix3 n g (0 : Fin 1)) = gscale (wrow x1 n) g := by
  rw [val_main_v25_apply, val_main_v23_apply, val_main_v21_apply, val_main_v22_apply, val_main_cst_5_apply,
    val_main_v24_apply, val_main_cst_6_apply]
  have e : idx_main_v21 (ix3 n g (0 : Fin 1)) = ix2 n g :=
    funext fun a => Fin.ext (by match a with | ⟨0, _⟩ => rfl | ⟨1, _⟩ => rfl)
  rw [e, wt_gmax]
  rfl

/-- Column k of weight row n, as group, place. -/
theorem wt_uncell (n : Fin 4096) (k : Fin 4096) : idx_main_v32 (ix2 n k) = ix3 n (grp k) (gsub k) :=
  funext fun a => Fin.ext (by
    match a with
    | ⟨0, _⟩ => show (n.val * 4096 + k.val) / 4096 = n.val; omega
    | ⟨1, _⟩ => show (n.val * 4096 + k.val) / 64 % 64 = k.val / 64; omega
    | ⟨2, _⟩ => show (n.val * 4096 + k.val) % 64 = k.val % 64; omega)

/-- The quantized weight at (n, k). -/
theorem wt_fq (x1 : (⟨S4096x4096, .f32⟩ : BufTy).Contents (Elt Ideal)) (n : Fin 4096) (k : Fin 4096) :
    val_main_v32 (F := Ideal) x1 (ix2 n k) = fq (wrow x1 n) k := by
  rw [val_main_v32_apply, wt_uncell, val_main_v31_apply, val_main_v29_apply, val_main_call3_v4_apply,
    val_main_call3_v3_apply, val_main_cst_8_apply, val_main_call3_v2_apply, val_main_call3_v1_apply,
    val_main_call3_v0_apply, val_main_cst_7_apply, val_main_v28_apply, val_main_v27_apply, val_main_v18_apply,
    val_main_v26_apply, val_main_v30_apply, wt_cell, gpos_grp_gsub]
  have e1 : idx_main_v26 (ix3 n (grp k) (gsub k)) = ix3 n (grp k) (0 : Fin 1) :=
    funext fun a => Fin.ext (by match a with | ⟨0, _⟩ => rfl | ⟨1, _⟩ => rfl | ⟨2, _⟩ => rfl)
  have e2 : idx_main_v30 (ix3 n (grp k) (gsub k)) = ix3 n (grp k) (0 : Fin 1) :=
    funext fun a => Fin.ext (by match a with | ⟨0, _⟩ => rfl | ⟨1, _⟩ => rfl | ⟨2, _⟩ => rfl)
  rw [e1, e2, wt_gscale]
  rfl

end Cert.ReferenceIdeal.RefValue

end
-- ==== Proof.RefIsSpec.lean ====
/-
  The reference program's result is the specified function.

  With the two quantized operands read at an index, the rest is three contractions and two additions: the product
  of the quantized operands summed over the 4096 columns, the activation's projection onto 32 directions summed
  over the same columns, that projection against the second low-rank factor summed over the 32 directions, their
  sum, and a bias that depends on the output column alone. Each contraction's two index functions are the plain
  (row, summed coordinate) pairs.
-/
import proofs.«181425_j56727928045732_2_alg».proof.Proof.RefQuant

noncomputable section

namespace Cert.ReferenceIdeal.RefValue

open Cert.ReferenceIdeal Cert.ReferenceIdeal.Gen Cert.ReferenceIdeal.Read Idealize.ShloMosaic Idealize.ShloMosaic.ValueIdx Cert.Quant

/-- The product of the two quantized operands at (m, n). -/
theorem main_at (x0 : (⟨S8192x4096, .f32⟩ : BufTy).Contents (Elt Ideal)) (x1 : (⟨S4096x4096, .f32⟩ : BufTy).Contents (Elt Ideal))
    (x4 : (⟨S4096, .f32⟩ : BufTy).Contents (Elt Ideal)) (m : Fin 8192) (n : Fin 4096) :
    val_main_v33 (F := Ideal) x0 x1 x4 (ix2 m n) = mainAt x0 x1 x4 m n := by
  rw [val_main_v33_apply]
  unfold mainAt
  refine Finset.sum_congr rfl fun k _ => ?_
  have el : lidx_main_v33 (ix2 m n) k = ix2 m k :=
    funext fun a => Fin.ext (by match a with | ⟨0, _⟩ => rfl | ⟨1, _⟩ => rfl)
  have er : ridx_main_v33 (ix2 m n) k = ix2 n k :=
    funext fun a => Fin.ext (by match a with | ⟨0, _⟩ => rfl | ⟨1, _⟩ => rfl)
  rw [el, er, act_fq, wt_fq]

/-- The unquantized activation's projection at (m, r). -/
theorem proj_at (x0 : (⟨S8192x4096, .f32⟩ : BufTy).Contents (Elt Ideal)) (x2 : (⟨S4096x32, .f32⟩ : BufTy).Contents (Elt Ideal))
    (x4 : (⟨S4096, .f32⟩ : BufTy).Contents (Elt Ideal)) (m : Fin 8192) (r : Fin 32) :
    val_main_v34 (F := Ideal) x0 x2 x4 (ix2 m r) = proj x0 x4 x2 m r := by
  rw [val_main_v34_apply]
  unfold proj
  refine Finset.sum_congr rfl fun k _ => ?_
  have el : lidx_main_v34 (ix2 m r) k = ix2 m k :=
    funext fun a => Fin.ext (by match a with | ⟨0, _⟩ => rfl | ⟨1, _⟩ => rfl)
  have er : ridx_main_v34 (ix2 m r) k = ix2 k r :=
    funext fun a => Fin.ext (by match a with | ⟨0, _⟩ => rfl | ⟨1, _⟩ => rfl)
  rw [el, er, smoothed_at]

/-- The low-rank correction at (m, n). -/
theorem lora_at (x0 : (⟨S8192x4096, .f32⟩ : BufTy).Contents (Elt Ideal)) (x2 x3 : (⟨S4096x32, .f32⟩ : BufTy).Contents (Elt Ideal))
    (x4 : (⟨S4096, .f32⟩ : BufTy).Contents (Elt Ideal)) (m : Fin 8192) (n : Fin 4096) :
    val_main_v35 (F := Ideal) x0 x2 x3 x4 (ix2 m n) = loraAt x0 x4 x2 x3 m n := by
  rw [val_main_v35_apply]
  unfold loraAt
  refine Finset.sum_congr rfl fun r _ => ?_
  have el : lidx_main_v35 (ix2 m n) r = ix2 m r :=
    funext fun a => Fin.ext (by match a with | ⟨0, _⟩ => rfl | ⟨1, _⟩ => rfl)
  have er : ridx_main_v35 (ix2 m n) r = ix2 n r :=
    funext fun a => Fin.ext (by match a with | ⟨0, _⟩ => rfl | ⟨1, _⟩ => rfl)
  rw [el, er, proj_at]

/-- The reference's result, as one function of the six arguments, is the specified one. -/
theorem ref_eq_result (x0 : (⟨Cert.ReferenceIdeal.S8192x4096, .f32⟩ : BufTy).Contents (Elt Ideal))
    (x1 : (⟨Cert.ReferenceIdeal.S4096x4096, .f32⟩ : BufTy).Contents (Elt Ideal))
    (x2 x3 : (⟨Cert.ReferenceIdeal.S4096x32, .f32⟩ : BufTy).Contents (Elt Ideal))
    (x4 x5 : (⟨Cert.ReferenceIdeal.S4096, .f32⟩ : BufTy).Contents (Elt Ideal)) :
    Cert.ReferenceIdeal.Read.val_main_v39 (F := Ideal) x0 x1 x2 x3 x4 x5 = Cert.Quant.result x0 x1 x2 x3 x4 x5 := by
  funext i
  obtain ⟨m, n, rfl⟩ : ∃ (m : Fin 8192) (n : Fin 4096), i = ix2 m n := ⟨i 0, i 1, eq_ix2 i⟩
  rw [val_main_v39_apply, val_main_v36_apply, val_main_v38_apply, val_main_v37_apply, main_at, lora_at]
  have e : idx_main_v37 (idx_main_v38 (ix2 m n)) = ix1 n :=
    funext fun a => Fin.ext (by match a with | ⟨0, _⟩ => rfl)
  rw [e]
  rfl

end Cert.ReferenceIdeal.RefValue

end
-- ==== Proof.lean ====
/-
  The certificate's five claims.

  The kernel computes, in three launches, a product of two per-group quantized operands contracted over
  4096 columns, a rank-32 correction and a bias; the reference computes the same with whole-array
  operations. On the extended reals both are the specification's `result` of the six arguments:
  the kernel because its result array is what the third launch's write-backs leave, read through the
  three launches back to the arguments (the four 1024-column tiles of the contraction regrouped into
  one sum: addition of extended reals is associative and commutative, so no finiteness is used and the
  precondition is never opened); the reference because its sixty operations, read one at a time, are
  that function. The two frames of the kernel's programs are the run of its four items read at the
  arguments, at any reading of the float values; the reference's frame is its run with the result
  dropped. The idealization rewrote nothing, so it preserves trivially.
-/
import proofs.«181425_j56727928045732_2_alg».proof.Defs
import proofs.«181425_j56727928045732_2_alg».proof.Proof.Gen.Kernel
import proofs.«181425_j56727928045732_2_alg».proof.Proof.Gen.KernelIdeal
import proofs.«181425_j56727928045732_2_alg».proof.Proof.Gen.ReferenceIdeal
import proofs.«181425_j56727928045732_2_alg».proof.Proof.Gen.ReferenceIdeal.Run
import proofs.«181425_j56727928045732_2_alg».proof.Proof.Gen.ReferenceIdeal.Read
import proofs.«181425_j56727928045732_2_alg».proof.Proof.Gen.Pre_finite_inputs
import proofs.«181425_j56727928045732_2_alg».proof.Proof.KernelFrame
import proofs.«181425_j56727928045732_2_alg».proof.Proof.Bits.KernelFrame
import proofs.«181425_j56727928045732_2_alg».proof.Proof.KernelWhole
import proofs.«181425_j56727928045732_2_alg».proof.Proof.RefIsSpec
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Hand.frame (F := Bits) m ρ
/-- So does its reading on extended reals. -/
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of the (agreeing) arguments. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq_result,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
